-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v42_1)) (v1 : (c : Dev Cert.KernelIdeal.nD) → Buf (Elt Ideal) ((c.tc : Thread Cert.KernelIdeal.nD Cert.KernelIdeal.τ).loc Cert.KernelIdeal.main_v42_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_1) = v0 c
          ∧ r.2.mem ((c.tc : Thread Cert.KernelIdeal.nD Cert.KernelIdeal.τ).loc Cert.KernelIdeal.main_v42_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S32x32 .f32) (main_arg9 : FVec F S32 .f32) (main_arg10 : FVec F S32x2 .f32) (main_arg11 : FVec F S2 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x2 .f32 := Host.absf main_arg10
  let main_cst_16 : FVec F S_ .f32 := constant S_ .f32 0x7F800000#32
  let main_v45 : FVec F S32x2 .f32 := broadcastInDim S32x2 ![] bcast_S_S32x2 main_cst_16
  let main_v46 : IVec S32x2 1 := cmpf .olt main_v44 main_v45
  let main_c_17 : IVec S_ 1 := constantI S_ 1 1#1
  let main_v47 : IVec S_ 1 := (fun x v => Host.reduce IntOp.andi x v reducesTo_S32x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S64x32 .f32) (main_arg6 : FVec F S32 .f32) (main_arg7 : FVec F S64x32 .f32) (main_arg8 : FVec F S32x32 .f32) (main_arg9 : FVec F S32 .f32) (main_arg10 : FVec F S32x2 .f32) (main_arg11 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x32 .f32) (main_arg6 : FVec F S32 .f32) (main_arg7 : FVec F S64x32 .f32) (main_arg8 : FVec F S32x32 .f32) (main_arg9 : FVec F S32 .f32) (main_arg10 : FVec F S32x2 .f32) (main_arg11 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S5000x64 : Shape := ⟨2, ![5000, 64]⟩
abbrev S1x32 : Shape := ⟨2, ![1, 32]⟩
abbrev S1x2 : Shape := ⟨2, ![1, 2]⟩
abbrev S100000x32 : Shape := ⟨2, ![100000, 32]⟩
abbrev S100000x2 : Shape := ⟨2, ![100000, 2]⟩
abbrev S5000x32 : Shape := ⟨2, ![5000, 32]⟩
abbrev S5000x2 : Shape := ⟨2, ![5000, 2]⟩

abbrev nBuf : Space → Nat
  | .hbm => 66
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x32, .f32⟩
  | .hbm, ⟨9, _⟩ => ⟨S32, .f32⟩
  | .hbm, ⟨10, _⟩ => ⟨S32x2, .f32⟩
  | .hbm, ⟨11, _⟩ => ⟨S2, .f32⟩
  | .hbm, ⟨12, _⟩ => ⟨S1x1250000, .i32⟩
  | .hbm, ⟨13, _⟩ => ⟨S1250000, .i32⟩
  | .hbm, ⟨14, _⟩ => ⟨S1x1250000, .i32⟩
  | .hbm, ⟨15, _⟩ => ⟨S1250000, .i32⟩
  | .hbm, ⟨16, _⟩ => ⟨S_, .f32⟩
  | .hbm, ⟨17, _⟩ => ⟨S1250000, .f32⟩
  | .hbm, ⟨18, _⟩ => ⟨S_, .f32⟩
  | .hbm, ⟨19, _⟩ => ⟨S100000, .f32⟩
  | .hbm, ⟨20, _⟩ => ⟨S1250000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1250000, .i32⟩
  | .hbm, ⟨31, _⟩ => ⟨S1250000, .i1⟩
  | .hbm, ⟨32, _⟩ => ⟨S_, .i32⟩
  | .hbm, ⟨33, _⟩ => ⟨S1250000, .i32⟩
  | .hbm, ⟨34, _⟩ => ⟨S1250000, .i32⟩
  | .hbm, ⟨35, _⟩ => ⟨S1250000, .i32⟩
  | .hbm, ⟨36, _⟩ => ⟨S1250000x1, .i32⟩
  | .hbm, ⟨37, _⟩ => ⟨S1250000x64, .f32⟩
  | .hbm, ⟨38, _⟩ => ⟨S_, .f32⟩
  | .hbm, ⟨39, _⟩ => ⟨S100000x64, .f32⟩
  | .hbm, ⟨40, _⟩ => ⟨S1250000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1250000, .i32⟩
  | .hbm, ⟨48, _⟩ => ⟨S1250000, .i1⟩
  | .hbm, ⟨49, _⟩ => ⟨S_, .i32⟩
  | .hbm, ⟨50, _⟩ => ⟨S1250000, .i32⟩
  | .hbm, ⟨51, _⟩ => ⟨S1250000, .i32⟩
  | .hbm, ⟨52, _⟩ => ⟨S1250000, .i32⟩
  | .hbm, ⟨53, _⟩ => ⟨S1250000x1, .i32⟩
  | .hbm, ⟨54, _⟩ => ⟨S1250000x64, .f32⟩
  | .hbm, ⟨55, _⟩ => ⟨S_, .f32⟩
  | .hbm, ⟨56, _⟩ => ⟨S100000x64, .f32⟩
  | .hbm, ⟨57, _⟩ => ⟨S1250000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x32, .f32⟩
  | .hbm, ⟨62, _⟩ => ⟨S1x32, .f32⟩
  | .hbm, ⟨63, _⟩ => ⟨S1x2, .f32⟩
  | .hbm, ⟨64, _⟩ => ⟨S100000x32, .f32⟩
  | .hbm, ⟨65, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S32x32, .f32⟩
  | .local _ .vmem, ⟨17, _⟩ => ⟨S1x32, .f32⟩
  | .local _ .vmem, ⟨18, _⟩ => ⟨S32x2, .f32⟩
  | .local _ .vmem, ⟨19, _⟩ => ⟨S1x2, .f32⟩
  | .local _ .vmem, ⟨20, _⟩ => ⟨S5000x32, .f32⟩
  | .local _ .vmem, ⟨21, _⟩ => ⟨S5000x32, .f32⟩
  | .local _ .vmem, ⟨22, _⟩ => ⟨S5000x2, .f32⟩
  | .local _ .vmem, ⟨23, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  shapeCasts_S2_S1x2 : S2.ShapeCasts S1x2
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S5000x32_S5000x32_0_0 : ∀ a, (![0, 0] : Fin 2 → Nat) a + S5000x32.size a ≤ S5000x32.size a
  h_S5000x32 : 0 < S5000x32.numel
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x32_S5000x32_1_0_0_1_n_n_wf : DotDims.WF S5000x32 S32x32 S5000x32 [1] [0] [0] [1] [] []
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x2.size a ≤ S32x2.size a
  hwx1_7 : ∀ i : grid1.Coords, EltTy.bits .f32 = 32 ∨ (Rect.block (s := S32x2) S32x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2.size a ≤ S1x2.size a
  hwx1_8 : ∀ i : grid1.Coords, EltTy.bits .f32 = 32 ∨ (Rect.block (s := S1x2) S1x2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S100000x32.size a
  hwx1_9 : ∀ i : grid1.Coords, EltTy.bits .f32 = 32 ∨ (Rect.block (s := S100000x32) S5000x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x2.size a ≤ S100000x2.size a
  hwx1_10 : ∀ i : grid1.Coords, EltTy.bits .f32 = 32 ∨ (Rect.block (s := S100000x2) S5000x2.size (cc1_transform_10 i) (hinb1_10 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S32x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S1x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42_0) S5000x32.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v42_1) S5000x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S100000x2 : Shape := ⟨2, ![100000, 2]⟩
abbrev S1x2 : Shape := ⟨2, ![1, 2]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S32x32, .f32⟩
  | .hbm, ⟨9, _⟩ => ⟨S32, .f32⟩
  | .hbm, ⟨10, _⟩ => ⟨S32x2, .f32⟩
  | .hbm, ⟨11, _⟩ => ⟨S2, .f32⟩
  | .hbm, ⟨12, _⟩ => ⟨S1x1250000, .i32⟩
  | .hbm, ⟨13, _⟩ => ⟨S1250000, .i32⟩
  | .hbm, ⟨14, _⟩ => ⟨S1x1250000, .i32⟩
  | .hbm, ⟨15, _⟩ => ⟨S1250000, .i32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x64, .f32⟩
  | .hbm, ⟨25, _⟩ => ⟨S_, .f32⟩
  | .hbm, ⟨26, _⟩ => ⟨S100000x64, .f32⟩
  | .hbm, ⟨27, _⟩ => ⟨S1250000x1, .i32⟩
  | .hbm, ⟨28, _⟩ => ⟨S100000x64, .f32⟩
  | .hbm, ⟨29, _⟩ => ⟨S_, .f32⟩
  | .hbm, ⟨30, _⟩ => ⟨S1250000, .f32⟩
  | .hbm, ⟨31, _⟩ => ⟨S_, .f32⟩
  | .hbm, ⟨32, _⟩ => ⟨S100000, .f32⟩
  | .hbm, ⟨33, _⟩ => ⟨S1250000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x64, .f32⟩
  | .hbm, ⟨59, _⟩ => ⟨S_, .f32⟩
  | .hbm, ⟨60, _⟩ => ⟨S100000x64, .f32⟩
  | .hbm, ⟨61, _⟩ => ⟨S1250000x1, .i32⟩
  | .hbm, ⟨62, _⟩ => ⟨S100000x64, .f32⟩
  | .hbm, ⟨63, _⟩ => ⟨S_, .f32⟩
  | .hbm, ⟨64, _⟩ => ⟨S1250000, .f32⟩
  | .hbm, ⟨65, _⟩ => ⟨S_, .f32⟩
  | .hbm, ⟨66, _⟩ => ⟨S100000, .f32⟩
  | .hbm, ⟨67, _⟩ => ⟨S1250000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x32, .f32⟩
  | .hbm, ⟨76, _⟩ => ⟨S1x32, .f32⟩
  | .hbm, ⟨77, _⟩ => ⟨S100000x32, .f32⟩
  | .hbm, ⟨78, _⟩ => ⟨S100000x32, .f32⟩
  | .hbm, ⟨79, _⟩ => ⟨S100000x32, .f32⟩
  | .hbm, ⟨80, _⟩ => ⟨S100000x32, .f32⟩
  | .hbm, ⟨81, _⟩ => ⟨S_, .f32⟩
  | .hbm, ⟨82, _⟩ => ⟨S100000x32, .f32⟩
  | .hbm, ⟨83, _⟩ => ⟨S100000x32, .f32⟩
  | .hbm, ⟨84, _⟩ => ⟨S100000x32, .f32⟩
  | .hbm, ⟨85, _⟩ => ⟨S1x32, .f32⟩
  | .hbm, ⟨86, _⟩ => ⟨S100000x32, .f32⟩
  | .hbm, ⟨87, _⟩ => ⟨S100000x32, .f32⟩
  | .hbm, ⟨88, _⟩ => ⟨S100000x2, .f32⟩
  | .hbm, ⟨89, _⟩ => ⟨S1x2, .f32⟩
  | .hbm, ⟨90, _⟩ => ⟨S100000x2, .f32⟩
  | .hbm, ⟨91, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  dot_S100000x32_S32x2_S100000x2_1_0_0_1_n_n_wf : DotDims.WF S100000x32 S32x2 S100000x2 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KernelExit.lean ====
/-
  The idealized kernel program's run, read at its last boundary.

  The program is four stretches: host operations, the first layer's region, host operations, the second layer's
  region.  Its buffers after the last stretch are a fold through these (`Gen.W4`), and every execution ends with each
  unscoped buffer at that fold.  The frame claim keeps only the argument arrays out of this; here the two result arrays
  are kept as well, still as the fold at their references.
-/
import proofs.«102204_j17428977287455_1_alg».proof.Proof.Gen.KernelIdeal.Frame

set_option maxRecDepth 16384

noncomputable section

namespace Cert.KernelIdeal.Exit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with both result arrays at the last
    boundary's contents and the argument arrays as launched. -/
theorem run : θ_run defs (onTc (τ := τ) (main (F := F))) ⟨m, fun _ => 0, ρ⟩ (fun r => ∀ c : Dev nD,
      r.2.mem ((c.tc : Thread nD τ).loc main_v42_1) = W4 m ρ c (Proc.devRef .tc main_v42_1)
      ∧ r.2.mem ((c.tc : Thread nD τ).loc main_v42_0) = W4 m ρ c (Proc.devRef .tc main_v42_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42_1 (by decide)),
       h c _ (mem_uc main_v42_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Exit

end
-- ==== Proof.SageSpec.lean ====
/-
  The mathematics of the two-layer mean-aggregation network, stated once over the extended reals.

  A node's new feature row depends on two rows of length 64: the node's own features and the mean of its
  in-neighbours' features.  `sageRow64` / `sageRow32` are one entry of such a row after the layer's two
  matrix products, the bias and the rectifier; `zRow` and `logitRow` are one entry of the projection and of the
  classifier on top of the second layer.  The whole-array functions below read a node's rows off the arrays and apply
  these.  The last part is the one algebraic law the comparison needs: multiplying by the reciprocal of a nonzero
  count is dividing by it, on every extended real.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

abbrev Nodes64 : Shape := ⟨2, ![100000, 64]⟩
abbrev Nodes32 : Shape := ⟨2, ![100000, 32]⟩
abbrev Nodes2 : Shape := ⟨2, ![100000, 2]⟩
abbrev M64x64 : Shape := ⟨2, ![64, 64]⟩
abbrev M64x32 : Shape := ⟨2, ![64, 32]⟩
abbrev M32x32 : Shape := ⟨2, ![32, 32]⟩
abbrev M32x2 : Shape := ⟨2, ![32, 2]⟩

/-- The f32 word of zero, kept as a word: both programs spell the rectifier's floor with it. -/
abbrev zeroWord : EReal := Ideal.ofBits .f32 0x00000000#32

/-- Entry `q` of a first-layer row: (mean · Wl + b) + x · Wr, floored at zero. -/
def sageRow64 (mean x : Fin 64 → EReal) (wl : M64x64.Idx → EReal) (b : Fin 64 → EReal) (wr : M64x64.Idx → EReal)
    (q : Fin 64) : EReal :=
  max (((∑ k : Fin 64, mean k * wl (ix2 k q)) + b q) + ∑ k : Fin 64, x k * wr (ix2 k q)) zeroWord

/-- Entry `q` of a second-layer row: the same with 32 output features. -/
def sageRow32 (mean x : Fin 64 → EReal) (wl : M64x32.Idx → EReal) (b : Fin 32 → EReal) (wr : M64x32.Idx → EReal)
    (q : Fin 32) : EReal :=
  max (((∑ k : Fin 64, mean k * wl (ix2 k q)) + b q) + ∑ k : Fin 64, x k * wr (ix2 k q)) zeroWord

/-- Entry `q` of the projection of a second-layer row: h₂ · Wp + bp. -/
def zRow (mean x : Fin 64 → EReal) (wl : M64x32.Idx → EReal) (b : Fin 32 → EReal) (wr : M64x32.Idx → EReal)
    (wp : M32x32.Idx → EReal) (bp : Fin 32 → EReal) (q : Fin 32) : EReal :=
  (∑ k : Fin 32, sageRow32 mean x wl b wr k * wp (ix2 k q)) + bp q

/-- Entry `q` of the classifier on the projected row: z · Wc + bc. -/
def logitRow (mean x : Fin 64 → EReal) (wl : M64x32.Idx → EReal) (b : Fin 32 → EReal) (wr : M64x32.Idx → EReal)
    (wp : M32x32.Idx → EReal) (bp : Fin 32 → EReal) (wc : M32x2.Idx → EReal) (bc : Fin 2 → EReal) (q : Fin 2) : EReal :=
  (∑ k : Fin 32, zRow mean x wl b wr wp bp k * wc (ix2 k q)) + bc q

/-- Row `p` of a node-feature array with 64 features. -/
abbrev rowOf (a : Nodes64.Idx → EReal) (p : Fin 100000) : Fin 64 → EReal := fun k => a (ix2 p k)

/-- The first layer's output array from the mean array and the feature array. -/
def hidden1 (mean x : Nodes64.Idx → EReal) (wl : M64x64.Idx → EReal) (b : Fin 64 → EReal) (wr : M64x64.Idx → EReal) :
    Nodes64.Idx → EReal :=
  fun i => sageRow64 (rowOf mean (i 0)) (rowOf x (i 0)) wl b wr (i 1)

/-- The projected second-layer array. -/
def projected (mean h : Nodes64.Idx → EReal) (wl : M64x32.Idx → EReal) (b : Fin 32 → EReal) (wr : M64x32.Idx → EReal)
    (wp : M32x32.Idx → EReal) (bp : Fin 32 → EReal) : Nodes32.Idx → EReal :=
  fun i => zRow (rowOf mean (i 0)) (rowOf h (i 0)) wl b wr wp bp (i 1)

/-- The classifier's array. -/
def classified (mean h : Nodes64.Idx → EReal) (wl : M64x32.Idx → EReal) (b : Fin 32 → EReal) (wr : M64x32.Idx → EReal)
    (wp : M32x32.Idx → EReal) (bp : Fin 32 → EReal) (wc : M32x2.Idx → EReal) (bc : Fin 2 → EReal) : Nodes2.Idx → EReal :=
  fun i => logitRow (rowOf mean (i 0)) (rowOf h (i 0)) wl b wr wp bp wc bc (i 1)

/-! ## The one law: a product with the reciprocal of a nonzero count is the quotient by it -/

/-- On the extended reals, with the quotient's conventions at zero out of the way, `x · (1 / y) = x / y`
    — at the infinities too, since both sides are `x · y⁻¹`. -/
theorem mul_one_div (x y : EReal) (hy : y ≠ 0) : x * Ideal.div 1 y = Ideal.div x y := by
  unfold Ideal.div
  rw [if_neg hy, if_neg hy, one_mul]

/-- A count floored at one is not zero. -/
theorem max_one_ne_zero (c : EReal) : max c 1 ≠ 0 := by
  have h : (1 : EReal) ≤ max c 1 := le_max_right c 1
  intro e
  rw [e] at h
  exact absurd h (by norm_num)

/-- The law as the two programs spell it: the word of one for the numerator and the floor. -/
theorem mean_law (x c : EReal) :
    x * Ideal.div (Ideal.ofBits .f32 0x3F800000#32) (max c (Ideal.ofBits .f32 0x3F800000#32))
      = Ideal.div x (max c (Ideal.ofBits .f32 0x3F800000#32)) := by
  rw [Ideal.ofBits_one_f32]
  exact mul_one_div x _ (max_one_ne_zero c)

end Cert.Sage

end
-- ==== Proof.MeanStage.lean ====
/-
  The neighbour mean, in the two spellings the programs use.

  Both programs gather the source node's row along every edge and add it into the destination node's row; both count a
  node's incoming edges by adding ones, and floor the count at one.  The reference then divides the sum by the floored
  count; the kernel program multiplies the sum by the reciprocal of the floored count.  The floored count is at least one,
  so it is not zero, and on the extended reals the two are the same number (`Cert.Sage.mean_law`).  The gather and the
  scatter-add are never opened: they are the same function of the same operands on both sides.
-/
import proofs.«102204_j17428977287455_1_alg».proof.Proof.Gen.ReferenceIdeal.Read
import proofs.«102204_j17428977287455_1_alg».proof.Proof.SageSpec
import Idealize.ShloMosaic.Lib.Pipeline.Value

noncomputable section

namespace Cert.Sage.Mean

open Cert.ReferenceIdeal Cert.ReferenceIdeal.Gen Cert.ReferenceIdeal.Read
open Idealize.ShloMosaic Idealize.ShloMosaic.TcCoe Idealize.SL.Sem Idealize.ShloMosaic.StableHlo

/-- A node-feature array of 64 features, and the edge list. -/
abbrev Feat := FVec Ideal S100000x64 .f32
abbrev Edges := IVec S2x1250000 32

/-- The sum, over a node's incoming edges, of the source nodes' rows. -/
def neighbourSum (h : Feat) (e : Edges) : Feat :=
  Host.scatterAdd (F := Ideal) scatter_S100000x64_S1250000x1_S1250000x64_1_0_0_1 (val_main_v11 (F := Ideal)) (val_main_v12 (F := Ideal) e)
    (Host.gather gather_S100000x64_S1250000x1_S1250000x64_1_0_n_n_0_1_164 h (val_main_v9 (F := Ideal) e))

/-- The mean as the reference computes it: the sum divided by the count floored at one. -/
def meanByDivision (h : Feat) (e : Edges) : Feat :=
  Host.divf (F := Ideal) (neighbourSum h e) (val_main_v21 (F := Ideal) e)

/-- The mean as the kernel program computes it: the sum times the reciprocal of the count floored at one. -/
def meanByReciprocal (h : Feat) (e : Edges) : Feat :=
  mulf (F := Ideal) (neighbourSum h e) (broadcastInDim S100000x64 ![0, 1] bcast_S100000x1_S100000x64_0_1
    (broadcastInDim S100000x1 ![0] bcast_S100000_S100000x1_0
      (Host.divf (F := Ideal) (φ := .f32) (val_main_v18 (F := Ideal)) (val_main_v19 (F := Ideal) e))))

/-- A per-node value spread over the 64 features, read at an entry, is the node's value. -/
theorem spread_apply (y : FVec Ideal S100000 .f32) (i : S100000x64.Idx) :
    broadcastInDim S100000x64 ![0, 1] bcast_S100000x1_S100000x64_0_1
      (broadcastInDim S100000x1 ![0] bcast_S100000_S100000x1_0 y) i = y (idx_main_v20 (idx_main_v21 i)) := by
  rw [broadcastInDim_apply _ bcast_S100000x1_S100000x64_0_1 _ i (idx_main_v21 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ bcast_S100000_S100000x1_0 y (idx_main_v21 i) (idx_main_v20 (idx_main_v21 i)) (fun a => match a with
    | ⟨0, _⟩ => by show ((idx_main_v21 i) 0).val = if (100000 : Nat) = 1 then 0 else ((idx_main_v21 i) 0).val; rw [if_neg (by decide)])

/-- The host's quotient of two arrays, read at an entry. -/
theorem hostDivf_apply {s : Shape} {φ : FTy} (a b : FVec Ideal s φ) (i : s.Idx) :
    Host.divf (F := Ideal) a b i = Ideal.div (a i) (b i) := rfl

/-- The two spellings of the mean are one array. -/
theorem mean_eq (h : Feat) (e : Edges) : meanByReciprocal h e = meanByDivision h e := by
  funext i
  unfold meanByReciprocal meanByDivision
  generalize neighbourSum h e = s
  rw [ValueIdx.mulf_apply, spread_apply, hostDivf_apply, hostDivf_apply, val_main_v21_apply, val_main_v20_apply]
  generalize idx_main_v20 (idx_main_v21 i) = k
  rw [val_main_v19_apply, val_main_v18_apply, val_main_cst_3_apply, Ideal.maximumf_def, Ideal.ofBits_def]
  exact Cert.Sage.mean_law _ _

end Cert.Sage.Mean

end
-- ==== Proof.HostStages.lean ====
/-
  What the kernel program's buffers hold when each region is entered, as terms of the argument arrays.

  Before the first region the host has sliced the edge list, counted incoming edges, summed the gathered feature rows and
  multiplied by the reciprocal of the floored count: the mean array in its reciprocal spelling, at the input features;
  and it has given the first bias a leading unit axis.  Between the regions it does the same to the first region's
  output array and reshapes the remaining three biases.  No operation writes an argument array or the first region's output.
-/
import proofs.«102204_j17428977287455_1_alg».proof.Proof.Gen.KernelIdeal.Frame
import proofs.«102204_j17428977287455_1_alg».proof.Proof.MeanStage
import Idealize.ShloMosaic.Lib.StableHlo.Run
import Idealize.ShloMosaic.Lib.ValueIdx
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx
open Cert.Sage.Mean

variable (m : (ℓ : Loc nD τ sig) → Buf (Elt Ideal) ℓ) (ρ : Dev nD → PrngReg)

/-! ## Entering the first region -/

/-- The mean array is the reciprocal spelling of the neighbour mean of the input features. -/
theorem entry1_mean (c : Dev nD) :
    (V1 m ρ c main_v24 : S100000x64.Idx → EReal)
      = meanByReciprocal (m ((c : Thread nD τ).loc main_arg0)) (m ((c : Thread nD τ).loc main_arg1)) := by
  show StableHlo.after hostOps0 (W0 m ρ c) (Proc.devRef .tc main_v24) = _
  after_results_simp
  rfl

/-- The feature array is the argument. -/
theorem entry1_x (c : Dev nD) : (V1 m ρ c main_arg0 : S100000x64.Idx → EReal) = (m ((c : Thread nD τ).loc main_arg0)) := by
  show StableHlo.after hostOps0 (W0 m ρ c) (Proc.devRef .tc main_arg0) = _
  after_results_simp

/-- The neighbour weights are the argument. -/
theorem entry1_wl (c : Dev nD) : (V1 m ρ c main_arg2 : S64x64.Idx → EReal) = (m ((c : Thread nD τ).loc main_arg2)) := by
  show StableHlo.after hostOps0 (W0 m ρ c) (Proc.devRef .tc main_arg2) = _
  after_results_simp

/-- The root weights are the argument. -/
theorem entry1_wr (c : Dev nD) : (V1 m ρ c main_arg4 : S64x64.Idx → EReal) = (m ((c : Thread nD τ).loc main_arg4)) := by
  show StableHlo.after hostOps0 (W0 m ρ c) (Proc.devRef .tc main_arg4) = _
  after_results_simp

/-- The bias row is the bias argument under a leading unit axis. -/
theorem entry1_b (c : Dev nD) (q : Fin 64) :
    (V1 m ρ c main_v25 : S1x64.Idx → EReal) (ix2 (0 : Fin 1) q) = ((m ((c : Thread nD τ).loc main_arg3)) : S64.Idx → EReal) (ix1 q) := by
  have e : (V1 m ρ c main_v25 : S1x64.Idx → EReal) = shapeCast S1x64 ((m ((c : Thread nD τ).loc main_arg3)) : S64.Idx → EReal) shapeCasts_S64_S1x64 := by
    show StableHlo.after hostOps0 (W0 m ρ c) (Proc.devRef .tc main_v25) = _
    after_results_simp
    rfl
  rw [e]
  exact shapeCast_a_1a_apply _ _ 0 q

/-! ## Entering the second region -/

/-- The first region's output array is still what that region left. -/
theorem entry2_h (c : Dev nD) :
    (V3 m ρ c main_v26 : S100000x64.Idx → EReal) = (dat0 (V1 m ρ) c).arrAt 5 cfg0.N := by
  show StableHlo.after hostOps1 (W2 m ρ c) (Proc.devRef .tc main_v26) = _
  after_results_simp
  exact W2_arr m ρ c 5

/-- The second mean array is the reciprocal spelling of the neighbour mean of the first region's output. -/
theorem entry2_mean (c : Dev nD) :
    (V3 m ρ c main_v38 : S100000x64.Idx → EReal)
      = meanByReciprocal ((dat0 (V1 m ρ) c).arrAt 5 cfg0.N) (m ((c : Thread nD τ).loc main_arg1)) := by
  show StableHlo.after hostOps1 (W2 m ρ c) (Proc.devRef .tc main_v38) = _
  after_results_simp
  rw [W2_of_ne m ρ c main_v1 (by decide), W2_of_ne m ρ c main_v3 (by decide), W2_of_ne m ρ c main_v12 (by decide),
    show W2 m ρ c (Proc.devRef .tc main_v26) = (dat0 (V1 m ρ) c).arrAt 5 cfg0.N from W2_arr m ρ c 5]
  generalize (dat0 (V1 m ρ) c).arrAt 5 cfg0.N = h
  dsimp only [W1]
  after_results_simp
  rfl

/-- The second layer's neighbour weights are the argument. -/
theorem entry2_wl (c : Dev nD) : (V3 m ρ c main_arg5 : S64x32.Idx → EReal) = (m ((c : Thread nD τ).loc main_arg5)) := by
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp

/-- The second layer's root weights are the argument. -/
theorem entry2_wr (c : Dev nD) : (V3 m ρ c main_arg7 : S64x32.Idx → EReal) = (m ((c : Thread nD τ).loc main_arg7)) := by
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp

/-- The projection's weights are the argument. -/
theorem entry2_wp (c : Dev nD) : (V3 m ρ c main_arg8 : S32x32.Idx → EReal) = (m ((c : Thread nD τ).loc main_arg8)) := by
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp

/-- The classifier's weights are the argument. -/
theorem entry2_wc (c : Dev nD) : (V3 m ρ c main_arg10 : S32x2.Idx → EReal) = (m ((c : Thread nD τ).loc main_arg10)) := by
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp

/-- The second layer's bias row is its argument under a leading unit axis. -/
theorem entry2_b (c : Dev nD) (q : Fin 32) :
    (V3 m ρ c main_v39 : S1x32.Idx → EReal) (ix2 (0 : Fin 1) q) = ((m ((c : Thread nD τ).loc main_arg6)) : S32.Idx → EReal) (ix1 q) := by
  have e : (V3 m ρ c main_v39 : S1x32.Idx → EReal) = shapeCast S1x32 ((m ((c : Thread nD τ).loc main_arg6)) : S32.Idx → EReal) shapeCasts_S32_S1x32 := by
    show StableHlo.after hostOps1 (W2 m ρ c) (Proc.devRef .tc main_v39) = _
    after_results_simp
    rw [W2_of_ne m ρ c main_arg6 (by decide)]
    show shapeCast _ (StableHlo.after hostOps0 (W0 m ρ c) (Proc.devRef .tc main_arg6)) _ = _
    after_results_simp
    rfl
  rw [e]
  exact shapeCast_a_1a_apply _ _ 0 q

/-- The projection's bias row likewise. -/
theorem entry2_bp (c : Dev nD) (q : Fin 32) :
    (V3 m ρ c main_v40 : S1x32.Idx → EReal) (ix2 (0 : Fin 1) q) = ((m ((c : Thread nD τ).loc main_arg9)) : S32.Idx → EReal) (ix1 q) := by
  have e : (V3 m ρ c main_v40 : S1x32.Idx → EReal) = shapeCast S1x32 ((m ((c : Thread nD τ).loc main_arg9)) : S32.Idx → EReal) shapeCasts_S32_S1x32 := by
    show StableHlo.after hostOps1 (W2 m ρ c) (Proc.devRef .tc main_v40) = _
    after_results_simp
    rw [W2_of_ne m ρ c main_arg9 (by decide)]
    show shapeCast _ (StableHlo.after hostOps0 (W0 m ρ c) (Proc.devRef .tc main_arg9)) _ = _
    after_results_simp
    rfl
  rw [e]
  exact shapeCast_a_1a_apply _ _ 0 q

/-- The classifier's bias row likewise. -/
theorem entry2_bc (c : Dev nD) (q : Fin 2) :
    (V3 m ρ c main_v41 : S1x2.Idx → EReal) (ix2 (0 : Fin 1) q) = ((m ((c : Thread nD τ).loc main_arg11)) : S2.Idx → EReal) (ix1 q) := by
  have e : (V3 m ρ c main_v41 : S1x2.Idx → EReal) = shapeCast S1x2 ((m ((c : Thread nD τ).loc main_arg11)) : S2.Idx → EReal) shapeCasts_S2_S1x2 := by
    show StableHlo.after hostOps1 (W2 m ρ c) (Proc.devRef .tc main_v41) = _
    after_results_simp
    rw [W2_of_ne m ρ c main_arg11 (by decide)]
    show shapeCast _ (StableHlo.after hostOps0 (W0 m ρ c) (Proc.devRef .tc main_arg11)) _ = _
    after_results_simp
    rfl
  rw [e]
  exact shapeCast_a_1a_apply _ _ 0 q

end Cert.KernelIdeal.Host

end
-- ==== Proof.Products.lean ====
/-
  The kernel bodies' four matrix products, each read at an entry as a plain finite sum.

  Every product in the two bodies contracts the left operand's columns with the right operand's rows into a zero
  accumulator, so its entry (p, q) is the sum over k of left (p, k) · right (k, q); rounding an operand to a narrower
  float format first changes nothing over the extended reals.
-/
import proofs.«102204_j17428977287455_1_alg».proof.Proof.Gen.KernelIdeal.Frame
import proofs.«102204_j17428977287455_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Products

open Cert.KernelIdeal Cert.KernelIdeal.Gen
open Idealize.ShloMosaic Idealize.ShloMosaic.TcCoe Idealize.SL.Sem Idealize.ShloMosaic.ValueIdx

/-- The coordinates of the two operand entries that meet in the product for output entry `i` and contraction index `q`. -/
theorem mm64x64_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm64x64_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem mm64x64_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem mm64x64_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] by [64,64] matrix product into a zero accumulator, read at entry (p, q): the sum over k of
    left (p, k) times right (k, q). -/
theorem mm64x64_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q) = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact mm64x64_lhs0 _ _
    | ⟨1, _⟩ => exact (mm64x64_lhs1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (mm64x64_rhs0 _ _).trans hk
    | ⟨1, _⟩ => exact mm64x64_rhs1 _ _)
  rw [el, er]

/-- The coordinates of the two operand entries that meet in the product for output entry `i` and contraction index `q`. -/
theorem mm64x32_lhs0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem mm64x32_lhs1 (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
theorem mm64x32_rhs0 (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
theorem mm64x32_rhs1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A [5000,64] by [64,32] matrix product into a zero accumulator, read at entry (p, q): the sum over k of
    left (p, k) times right (k, q). -/
theorem mm64x32_apply {φ₁ φ₂ : FTy} (l : FVec Ideal S5000x64 φ₁) (r : FVec Ideal S64x32 φ₂) (p : Fin 5000) (q : Fin 32) :
    matmul dot_S5000x64_S64x32_S5000x32_1_0_0_1_n_n none l r (constant S5000x32 .f32 0x00000000#32) (ix2 p q) = ∑ k : Fin 64, l (ix2 p k) * r (ix2 k q) := by
  refine (Ideal.matmul_constant_zero_apply dot_S5000x64_S64x32_S5000x32_1_0_0_1_n_n none l r (ix2 p q)).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact mm64x32_lhs0 _ _
    | ⟨1, _⟩ => exact (mm64x32_lhs1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (mm64x32_rhs0 _ _).trans hk
    | ⟨1, _⟩ => exact mm64x32_rhs1 _ _)
  rw [el, er]

/-- The coordinates of the two operand entries that meet in the product for output entry `i` and contraction index `q`. -/
theorem mm32x32_lhs0 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem mm32x32_lhs1 (i : S5000x32.Idx) (q : dot_S5000x32_S32x32_S5000x32_1_0_0_1_n_n.contr.Idx) : (dot_S5000x32_S32x32_S5000x32_1_0_0_1_n_n.lhsIdx i q 1).val = (q ⟨0, by decide⟩).val :=
  dot_S5000x32_S32x32_S5000x32_1_0_0_1_n_n.lhsIdx_val_of_single rfl i q
theorem mm32x32_rhs0 (i : S5000x32.Idx) (q : dot_S5000x32_S32x32_S5000x32_1_0_0_1_n_n.contr.Idx) : (dot_S5000x32_S32x32_S5000x32_1_0_0_1_n_n.rhsIdx i q 0).val = (q ⟨0, by decide⟩).val :=
  dot_S5000x32_S32x32_S5000x32_1_0_0_1_n_n.rhsIdx_val_of_single rfl i q
theorem mm32x32_rhs1 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- A [5000,32] by [32,32] matrix product into a zero accumulator, read at entry (p, q): the sum over k of
    left (p, k) times right (k, q). -/
theorem mm32x32_apply {φ₁ φ₂ : FTy} (l : FVec Ideal S5000x32 φ₁) (r : FVec Ideal S32x32 φ₂) (p : Fin 5000) (q : Fin 32) :
    matmul dot_S5000x32_S32x32_S5000x32_1_0_0_1_n_n none l r (constant S5000x32 .f32 0x00000000#32) (ix2 p q) = ∑ k : Fin 32, l (ix2 p k) * r (ix2 k q) := by
  refine (Ideal.matmul_constant_zero_apply dot_S5000x32_S32x32_S5000x32_1_0_0_1_n_n none l r (ix2 p q)).trans ?_
  rw [← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 p q) ((ValueIdx.contrEquiv1 dot_S5000x32_S32x32_S5000x32_1_0_0_1_n_n 32 rfl rfl).symm k) = ix2 p k := funext fun a => Fin.ext (by
    match a with
    | ⟨0, _⟩ => exact mm32x32_lhs0 _ _
    | ⟨1, _⟩ => exact (mm32x32_lhs1 _ _).trans hk)
  have er : dot_S5000x32_S32x32_S5000x32_1_0_0_1_n_n.rhsIdx (ix2 p q) ((ValueIdx.contrEquiv1 dot_S5000x32_S32x32_S5000x32_1_0_0_1_n_n 32 rfl rfl).symm k) = ix2 k q := funext fun a => Fin.ext (by
    match a with
    | ⟨0, _⟩ => exact (mm32x32_rhs0 _ _).trans hk
    | ⟨1, _⟩ => exact mm32x32_rhs1 _ _)
  rw [el, er]

/-- The coordinates of the two operand entries that meet in the product for output entry `i` and contraction index `q`. -/
theorem mm32x2_lhs0 (i : S5000x2.Idx) (q : dot_S5000x32_S32x2_S5000x2_1_0_0_1_n_n.contr.Idx) : (dot_S5000x32_S32x2_S5000x2_1_0_0_1_n_n.lhsIdx i q 0).val = (i 0).val := by
  unfold DotDims.lhsIdx
  rw [dif_neg (show ¬(0 : Fin S5000x32.rank) ∈ dot_S5000x32_S32x2_S5000x2_1_0_0_1_n_n.lhsBatch by decide), dif_pos (show (0 : Fin S5000x32.rank) ∈ dot_S5000x32_S32x2_S5000x2_1_0_0_1_n_n.lhsNonContracting by decide)]
  rfl
theorem mm32x2_lhs1 (i : S5000x2.Idx) (q : dot_S5000x32_S32x2_S5000x2_1_0_0_1_n_n.contr.Idx) : (dot_S5000x32_S32x2_S5000x2_1_0_0_1_n_n.lhsIdx i q 1).val = (q ⟨0, by decide⟩).val :=
  dot_S5000x32_S32x2_S5000x2_1_0_0_1_n_n.lhsIdx_val_of_single rfl i q
theorem mm32x2_rhs0 (i : S5000x2.Idx) (q : dot_S5000x32_S32x2_S5000x2_1_0_0_1_n_n.contr.Idx) : (dot_S5000x32_S32x2_S5000x2_1_0_0_1_n_n.rhsIdx i q 0).val = (q ⟨0, by decide⟩).val :=
  dot_S5000x32_S32x2_S5000x2_1_0_0_1_n_n.rhsIdx_val_of_single rfl i q
theorem mm32x2_rhs1 (i : S5000x2.Idx) (q : dot_S5000x32_S32x2_S5000x2_1_0_0_1_n_n.contr.Idx) : (dot_S5000x32_S32x2_S5000x2_1_0_0_1_n_n.rhsIdx i q 1).val = (i 1).val := by
  unfold DotDims.rhsIdx
  rw [dif_neg (show ¬(1 : Fin S32x2.rank) ∈ dot_S5000x32_S32x2_S5000x2_1_0_0_1_n_n.rhsBatch by decide), dif_pos (show (1 : Fin S32x2.rank) ∈ dot_S5000x32_S32x2_S5000x2_1_0_0_1_n_n.rhsNonContracting by decide)]
  rfl

/-- A [5000,32] by [32,2] matrix product into a zero accumulator, read at entry (p, q): the sum over k of
    left (p, k) times right (k, q). -/
theorem mm32x2_apply {φ₁ φ₂ : FTy} (l : FVec Ideal S5000x32 φ₁) (r : FVec Ideal S32x2 φ₂) (p : Fin 5000) (q : Fin 2) :
    matmul dot_S5000x32_S32x2_S5000x2_1_0_0_1_n_n none l r (constant S5000x2 .f32 0x00000000#32) (ix2 p q) = ∑ k : Fin 32, l (ix2 p k) * r (ix2 k q) := by
  refine (Ideal.matmul_constant_zero_apply dot_S5000x32_S32x2_S5000x2_1_0_0_1_n_n none l r (ix2 p q)).trans ?_
  rw [← Equiv.sum_comp (ValueIdx.contrEquiv1 dot_S5000x32_S32x2_S5000x2_1_0_0_1_n_n 32 rfl rfl).symm]
  refine Finset.sum_congr rfl fun k _ => ?_
  have hk := ValueIdx.contrEquiv1_symm_val dot_S5000x32_S32x2_S5000x2_1_0_0_1_n_n 32 rfl rfl k
  have el : dot_S5000x32_S32x2_S5000x2_1_0_0_1_n_n.lhsIdx (ix2 p q) ((ValueIdx.contrEquiv1 dot_S5000x32_S32x2_S5000x2_1_0_0_1_n_n 32 rfl rfl).symm k) = ix2 p k := funext fun a => Fin.ext (by
    match a with
    | ⟨0, _⟩ => exact mm32x2_lhs0 _ _
    | ⟨1, _⟩ => exact (mm32x2_lhs1 _ _).trans hk)
  have er : dot_S5000x32_S32x2_S5000x2_1_0_0_1_n_n.rhsIdx (ix2 p q) ((ValueIdx.contrEquiv1 dot_S5000x32_S32x2_S5000x2_1_0_0_1_n_n 32 rfl rfl).symm k) = ix2 k q := funext fun a => Fin.ext (by
    match a with
    | ⟨0, _⟩ => exact (mm32x2_rhs0 _ _).trans hk
    | ⟨1, _⟩ => exact mm32x2_rhs1 _ _)
  rw [el, er]

end Cert.KernelIdeal.Products

end
-- ==== Proof.Layer1Blocks.lean ====
/-
  The first layer's region: what its output array holds after the grid has run, as one function of the arrays the
  region finds.

  The region walks the 100000 nodes in 20 blocks of 5000 rows.  At block t the body reads rows 5000·t … 5000·t + 4999
  of the feature array and of the mean array, the two weight matrices and the bias row whole, and stores
  (mean · Wl + b) + x · Wr floored at zero.  Entry (p, q) of the stored block depends only on row 5000·t + p of the two
  node arrays, so the blocks are restrictions of the one array `Cert.Sage.hidden1`; they tile the array, hence the array
  ends as that function.
-/
import proofs.«102204_j17428977287455_1_alg».proof.Proof.Gen.KernelIdeal.Frame
import proofs.«102204_j17428977287455_1_alg».proof.Proof.SageSpec
import proofs.«102204_j17428977287455_1_alg».proof.Proof.Products
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Cert.KernelIdeal.Products
open Idealize.ShloMosaic Idealize.ShloMosaic.TcCoe Idealize.SL.Sem Idealize.ShloMosaic.ValueIdx
open Idealize.ShloMosaic.Pipeline (Dat)
open Cert.Sage

theorem hz : (![0, 0] : Fin 2 → Nat) = fun _ => 0 := funext fun a => by fin_cases a <;> rfl

/-- The body's stored value at entry (p, q): the layer's row function of row p of the two node blocks. -/
theorem stored_apply (v0 v2 : Vec Ideal S5000x64 .f32) (v5 v7 : Vec Ideal S64x64 .f32) (v11 : Vec Ideal S1x64 .f32)
    (p : Fin 5000) (q : Fin 64) :
    k0_pay1 (F := Ideal) v0 v2 v5 v7 v11 (ix2 p q)
      = sageRow64 (fun k => v2 (ix2 p k)) (fun k => v0 (ix2 p k)) v5 (fun q => v11 (ix2 (0 : Fin 1) q)) v7 q := by
  unfold k0_pay1 sageRow64
  simp only [shapeCast_self]
  show max (((matmul (F := Ideal) dot_S5000x64_S64x64_S5000x64_1_0_0_1_n_n none (truncf (F := Ideal) .bf16 v2 bitsLt_bf16_f32) (truncf (F := Ideal) .bf16 v5 bitsLt_bf16_f32) (constant (F := Ideal) S5000x64 .f32 0x00000000#32) (ix2 p q) : EReal)
      + (broadcastTo S5000x64 v11 broadcasts_S1x64_S5000x64 (ix2 p q) : EReal))
      + (matmul (F := Ideal) dot_S5000x64_S64x64_S5000x64_1_0_0_1_n_n none (truncf (F := Ideal) .bf16 v0 bitsLt_bf16_f32) (truncf (F := Ideal) .bf16 v7 bitsLt_bf16_f32) (constant (F := Ideal) S5000x64 .f32 0x00000000#32) (ix2 p q) : EReal))
      (Ideal.ofBits .f32 0x00000000#32) = _
  rw [mm64x64_apply, mm64x64_apply, broadcastTo_1b_ab_apply]
  rfl

/-- The printed index maps over the grid: the three node windows sit at block (t, 0), the weights and the bias at (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p of block t of a node window is row 5000·t + p of its array. -/
theorem row_x (c : Dev nD) (t : Fin cfg0.N) (p : Fin 5000) (k : Fin 64) (r : Fin 100000) (hr : r.val = 5000 * t.val + p.val) :
    (iblk0 V c 0 t : Vec Ideal S5000x64 .f32) (ix2 p k) = (V c main_arg0 : S100000x64.Idx → EReal) (ix2 r k) := by
  obtain ⟨e0, e1, -⟩ := index_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

theorem row_mean (c : Dev nD) (t : Fin cfg0.N) (p : Fin 5000) (k : Fin 64) (r : Fin 100000) (hr : r.val = 5000 * t.val + p.val) :
    (iblk0 V c 1 t : Vec Ideal S5000x64 .f32) (ix2 p k) = (V c main_v24 : S100000x64.Idx → EReal) (ix2 r k) := by
  obtain ⟨-, -, e0, e1, -⟩ := index_facts t
  unfold iblk0
  rw [View.read_apply]
  show V c main_v24 _ = V c main_v24 _
  refine congrArg (V c main_v24) (funext fun a => Fin.ext ?_)
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

/-- The weight and bias windows' one block is the whole array. -/
theorem whole_wl (c : Dev nD) (t : Fin cfg0.N) : (iblk0 V c 2 t : Vec Ideal S64x64 .f32) = (V c main_arg2 : S64x64.Idx → EReal) := by
  obtain ⟨-, -, -, -, e0, e1, -⟩ := index_facts t
  funext y
  unfold iblk0
  rw [View.read_apply]
  show V c main_arg2 _ = V c main_arg2 y
  refine congrArg (V c main_arg2) (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

theorem whole_b (c : Dev nD) (t : Fin cfg0.N) : (iblk0 V c 3 t : Vec Ideal S1x64 .f32) = (V c main_v25 : S1x64.Idx → EReal) := by
  obtain ⟨-, -, -, -, -, -, e0, e1, -⟩ := index_facts t
  funext y
  unfold iblk0
  rw [View.read_apply]
  show V c main_v25 _ = V c main_v25 y
  refine congrArg (V c main_v25) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

theorem whole_wr (c : Dev nD) (t : Fin cfg0.N) : (iblk0 V c 4 t : Vec Ideal S64x64 .f32) = (V c main_arg4 : S64x64.Idx → EReal) := by
  obtain ⟨-, -, -, -, -, -, -, -, e0, e1, -⟩ := index_facts t
  funext y
  unfold iblk0
  rw [View.read_apply]
  show V c main_arg4 _ = V c main_arg4 y
  refine congrArg (V c main_arg4) (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The first layer's output as one array of the arrays the region finds. -/
abbrev result (c : Dev nD) : S100000x64.Idx → EReal :=
  hidden1 (V c main_v24) (V c main_arg0) (V c main_arg2) (fun q => (V c main_v25 : S1x64.Idx → EReal) (ix2 (0 : Fin 1) q)) (V c main_arg4)

/-- What point t writes back is block t of that array. -/
theorem flushed_eq (c : Dev nD) (t : Fin cfg0.N) :
    (dat0 (F := Ideal) V c).flushed 5 t = ((cfg0.win 5).blk t).view.read (Elt Ideal) (result V c) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := index_facts t
  funext j
  obtain ⟨p, q, rfl⟩ : ∃ (p : Fin 5000) (q : Fin 64), j = ix2 p q := ⟨j 0, j 1, eq_ix2 j⟩
  have ht : t.val < 20 := by have h := t.isLt; have hN : cfg0.N = 20 := N_0; omega
  let r : Fin 100000 := ⟨5000 * t.val + p.val, by have := p.isLt; omega⟩
  have hemb : ((cfg0.win 5).blk t).view.emb (ix2 p q) = (ix2 r q : S100000x64.Idx) := funext fun a => Fin.ext (by
    match a with
    | ⟨0, _⟩ => show win0_5.index t (0 : Fin 2) * 5000 + 1 * p.val = 5000 * t.val + p.val; rw [e0]; omega
    | ⟨1, _⟩ => show win0_5.index t (1 : Fin 2) * 64 + 1 * q.val = q.val; rw [e1]; omega)
  show k0_pay1 (F := Ideal) (iblk0 V c 0 t) (iblk0 V c 1 t) (iblk0 V c 2 t) (iblk0 V c 4 t) (iblk0 V c 3 t) (ix2 p q)
    = result V c (((cfg0.win 5).blk t).view.emb (ix2 p q))
  rw [hemb, stored_apply, whole_wl, whole_b, whole_wr]
  show _ = sageRow64 (rowOf (V c main_v24) r) (rowOf (V c main_arg0) r) _ _ _ q
  refine congrArg₂ (fun a b => sageRow64 a b _ _ _ q) (funext fun k => ?_) (funext fun k => ?_)
  · exact row_mean V c t p k r rfl
  · exact row_x V c t p k r rfl

/-- An index of the array is in point t's block iff each coordinate is in the block's range. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- Every entry of the array lies in the block of the point its row falls in. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨-, -, -, -, -, -, -, -, -, -, e0, e1⟩ := index_facts t
  have e0' : win0_5.index t (0 : Fin 2) = (i 0).val / 5000 := e0
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0']; omega
  | ⟨1, _⟩ => show win0_5.index t (1 : Fin 2) * 64 ≤ (i 1).val ∧ (i 1).val < win0_5.index t (1 : Fin 2) * 64 + 64; rw [e1]; omega

/-- The region's output array after the grid is the first layer's array. -/
theorem final (c : Dev nD) : (dat0 (F := Ideal) V c).arrAt 5 cfg0.N = result V c :=
  (dat0 (F := Ideal) V c).arrAt_eq_of_cover 5 (result V c) (fun t _ => flushed_eq V c t) cover

end Cert.KernelIdeal.Layer1

end
-- ==== Proof.Layer2Blocks.lean ====
/-
  The second region: what its two output arrays hold after the grid has run, as functions of the arrays the region finds.

  Like the first region it walks the nodes in 20 blocks of 5000 rows.  At block t the body reads rows
  5000·t … 5000·t + 4999 of the first layer's output and of its mean array, and all the weights and bias rows whole;
  it forms the second layer's rows (mean · Wl + b) + h · Wr floored at zero, projects them (· Wp + bp) and stores the
  projection; then it classifies the projection (· Wc + bc) and stores that.  Entry (p, q) of either stored block depends
  only on row 5000·t + p of the two node arrays, so the blocks are restrictions of `Cert.Sage.projected` and
  `Cert.Sage.classified`; the blocks tile the arrays.
-/
import proofs.«102204_j17428977287455_1_alg».proof.Proof.Gen.KernelIdeal.Frame
import proofs.«102204_j17428977287455_1_alg».proof.Proof.SageSpec
import proofs.«102204_j17428977287455_1_alg».proof.Proof.Products
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Cert.KernelIdeal.Products
open Idealize.ShloMosaic Idealize.ShloMosaic.TcCoe Idealize.SL.Sem Idealize.ShloMosaic.ValueIdx
open Idealize.ShloMosaic.Pipeline (Dat)
open Cert.Sage

theorem hz : (![0, 0] : Fin 2 → Nat) = fun _ => 0 := funext fun a => by fin_cases a <;> rfl

/-! ## The body's arithmetic at an entry -/

/-- The second layer's rows of a block, before the projection: the sub-term of the body's stored values. -/
def layerBlock (v0 v3 : Vec Ideal S5000x64 .f32) (v6 v8 : Vec Ideal S64x32 .f32) (v12 : Vec Ideal S1x32 .f32) : FVec Ideal S5000x32 .f32 :=
  maximumf (F := Ideal)
    (addf (F := Ideal)
      (addf (F := Ideal)
        (matmul (F := Ideal) dot_S5000x64_S64x32_S5000x32_1_0_0_1_n_n none
          (truncf (F := Ideal) .bf16 (shapeCast S5000x64 v3 shapeCasts_S5000x64_S5000x64) bitsLt_bf16_f32)
          (truncf (F := Ideal) .bf16 v6 bitsLt_bf16_f32) (constant (F := Ideal) S5000x32 .f32 0x00000000#32))
        (broadcastTo S5000x32 (shapeCast S1x32 v12 shapeCasts_S1x32_S1x32) broadcasts_S1x32_S5000x32))
      (matmul (F := Ideal) dot_S5000x64_S64x32_S5000x32_1_0_0_1_n_n none
        (truncf (F := Ideal) .bf16 (shapeCast S5000x64 v0 shapeCasts_S5000x64_S5000x64) bitsLt_bf16_f32)
        (truncf (F := Ideal) .bf16 v8 bitsLt_bf16_f32) (constant (F := Ideal) S5000x32 .f32 0x00000000#32)))
    (broadcast S5000x32 (Scalar.ofBits (F := Ideal) .f32 0x00000000#32))

/-- Entry (p, k) of those rows is the second layer's row function of row p of the two node blocks. -/
theorem layerBlock_apply (v0 v3 : Vec Ideal S5000x64 .f32) (v6 v8 : Vec Ideal S64x32 .f32) (v12 : Vec Ideal S1x32 .f32)
    (p : Fin 5000) (k : Fin 32) :
    layerBlock v0 v3 v6 v8 v12 (ix2 p k)
      = sageRow32 (fun j => v3 (ix2 p j)) (fun j => v0 (ix2 p j)) v6 (fun q => v12 (ix2 (0 : Fin 1) q)) v8 k := by
  unfold layerBlock sageRow32
  simp only [shapeCast_self]
  show max (((matmul (F := Ideal) dot_S5000x64_S64x32_S5000x32_1_0_0_1_n_n none (truncf (F := Ideal) .bf16 v3 bitsLt_bf16_f32) (truncf (F := Ideal) .bf16 v6 bitsLt_bf16_f32) (constant (F := Ideal) S5000x32 .f32 0x00000000#32) (ix2 p k) : EReal)
      + (broadcastTo S5000x32 v12 broadcasts_S1x32_S5000x32 (ix2 p k) : EReal))
      + (matmul (F := Ideal) dot_S5000x64_S64x32_S5000x32_1_0_0_1_n_n none (truncf (F := Ideal) .bf16 v0 bitsLt_bf16_f32) (truncf (F := Ideal) .bf16 v8 bitsLt_bf16_f32) (constant (F := Ideal) S5000x32 .f32 0x00000000#32) (ix2 p k) : EReal))
      (Ideal.ofBits .f32 0x00000000#32) = _
  rw [mm64x32_apply, mm64x32_apply, broadcastTo_1b_ab_apply]
  rfl

/-- The projection the body stores is the product of those rows with the projection weights, plus its bias row. -/
theorem projection_eq (v0 v3 : Vec Ideal S5000x64 .f32) (v6 v8 : Vec Ideal S64x32 .f32) (v12 : Vec Ideal S1x32 .f32)
    (v20 : Vec Ideal S32x32 .f32) (v23 : Vec Ideal S1x32 .f32) :
    k1_pay2 (F := Ideal) v0 v3 v6 v8 v12 v20 v23
      = addf (F := Ideal)
          (matmul (F := Ideal) dot_S5000x32_S32x32_S5000x32_1_0_0_1_n_n none
            (truncf (F := Ideal) .bf16 (layerBlock v0 v3 v6 v8 v12) bitsLt_bf16_f32) (truncf (F := Ideal) .bf16 v20 bitsLt_bf16_f32)
            (constant (F := Ideal) S5000x32 .f32 0x00000000#32))
          (broadcastTo S5000x32 (shapeCast S1x32 v23 shapeCasts_S1x32_S1x32) broadcasts_S1x32_S5000x32) := rfl

/-- Entry (p, q) of the stored projection. -/
theorem projection_apply (v0 v3 : Vec Ideal S5000x64 .f32) (v6 v8 : Vec Ideal S64x32 .f32) (v12 : Vec Ideal S1x32 .f32)
    (v20 : Vec Ideal S32x32 .f32) (v23 : Vec Ideal S1x32 .f32) (p : Fin 5000) (q : Fin 32) :
    k1_pay2 (F := Ideal) v0 v3 v6 v8 v12 v20 v23 (ix2 p q)
      = zRow (fun j => v3 (ix2 p j)) (fun j => v0 (ix2 p j)) v6 (fun q => v12 (ix2 (0 : Fin 1) q)) v8 v20 (fun q => v23 (ix2 (0 : Fin 1) q)) q := by
  rw [projection_eq]
  simp only [shapeCast_self]
  show ((matmul (F := Ideal) dot_S5000x32_S32x32_S5000x32_1_0_0_1_n_n none (truncf (F := Ideal) .bf16 (layerBlock v0 v3 v6 v8 v12) bitsLt_bf16_f32) (truncf (F := Ideal) .bf16 v20 bitsLt_bf16_f32) (constant (F := Ideal) S5000x32 .f32 0x00000000#32) (ix2 p q) : EReal)
      + (broadcastTo S5000x32 v23 broadcasts_S1x32_S5000x32 (ix2 p q) : EReal)) = _
  rw [mm32x32_apply, broadcastTo_1b_ab_apply]
  unfold zRow
  refine congrArg₂ (fun a b : EReal => a + b) (Finset.sum_congr rfl fun k _ => ?_) rfl
  exact congrArg (fun a : EReal => a * v20 (ix2 k q)) (layerBlock_apply v0 v3 v6 v8 v12 p k)

/-- Entry (p, q) of the stored classification. -/
theorem classification_apply (v0 v3 : Vec Ideal S5000x64 .f32) (v6 v8 : Vec Ideal S64x32 .f32) (v12 : Vec Ideal S1x32 .f32)
    (v20 : Vec Ideal S32x32 .f32) (v23 : Vec Ideal S1x32 .f32) (v29 : Vec Ideal S32x2 .f32) (v32 : Vec Ideal S1x2 .f32) (p : Fin 5000) (q : Fin 2) :
    k1_pay1 (F := Ideal) (k1_pay3 (F := Ideal) v0 v3 v6 v8 v12 v20 v23 v29) v32 (ix2 p q)
      = logitRow (fun j => v3 (ix2 p j)) (fun j => v0 (ix2 p j)) v6 (fun q => v12 (ix2 (0 : Fin 1) q)) v8 v20 (fun q => v23 (ix2 (0 : Fin 1) q))
          v29 (fun q => v32 (ix2 (0 : Fin 1) q)) q := by
  unfold k1_pay1 k1_pay3
  simp only [shapeCast_self]
  show ((matmul (F := Ideal) dot_S5000x32_S32x2_S5000x2_1_0_0_1_n_n none (truncf (F := Ideal) .bf16 (k1_pay2 (F := Ideal) v0 v3 v6 v8 v12 v20 v23) bitsLt_bf16_f32) (truncf (F := Ideal) .bf16 v29 bitsLt_bf16_f32) (constant (F := Ideal) S5000x2 .f32 0x00000000#32) (ix2 p q) : EReal)
      + (broadcastTo S5000x2 v32 broadcasts_S1x2_S5000x2 (ix2 p q) : EReal)) = _
  rw [mm32x2_apply, broadcastTo_1b_ab_apply]
  unfold logitRow
  refine congrArg₂ (fun a b : EReal => a + b) (Finset.sum_congr rfl fun k _ => ?_) rfl
  exact congrArg (fun a : EReal => a * v29 (ix2 k q)) (projection_apply v0 v3 v6 v8 v12 v20 v23 p k)

/-! ## The windows' blocks -/

/-- The printed index maps over the grid: the four node windows sit at block (t, 0), the weights and bias rows at (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

variable (V : (c : Dev nD) → (b : Ref sig .tc) → Buf (Elt Ideal) ((c : Thread nD τ).loc b))

/-- Row p of block t of a node window is row 5000·t + p of its array. -/
theorem row_h (c : Dev nD) (t : Fin cfg1.N) (p : Fin 5000) (k : Fin 64) (r : Fin 100000) (hr : r.val = 5000 * t.val + p.val) :
    (iblk1 V c 0 t : Vec Ideal S5000x64 .f32) (ix2 p k) = (V c main_v26 : S100000x64.Idx → EReal) (ix2 r k) := by
  obtain ⟨e0, e1, -⟩ := index_facts t
  unfold iblk1
  rw [View.read_apply]
  show V c main_v26 _ = V c main_v26 _
  refine congrArg (V c main_v26) (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

theorem row_mean (c : Dev nD) (t : Fin cfg1.N) (p : Fin 5000) (k : Fin 64) (r : Fin 100000) (hr : r.val = 5000 * t.val + p.val) :
    (iblk1 V c 1 t : Vec Ideal S5000x64 .f32) (ix2 p k) = (V c main_v38 : S100000x64.Idx → EReal) (ix2 r k) := by
  obtain ⟨-, -, e0, e1, -⟩ := index_facts t
  unfold iblk1
  rw [View.read_apply]
  show V c main_v38 _ = V c main_v38 _
  refine congrArg (V c main_v38) (funext fun a => Fin.ext ?_)
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

/-- A weight or bias window's one block is its whole array. -/
theorem whole_wl (c : Dev nD) (t : Fin cfg1.N) : (iblk1 V c 2 t : Vec Ideal S64x32 .f32) = (V c main_arg5 : S64x32.Idx → EReal) := by
  obtain ⟨-, -, -, -, e0, e1, -⟩ := index_facts t
  funext y
  unfold iblk1
  rw [View.read_apply]
  show V c main_arg5 _ = V c main_arg5 y
  refine congrArg (V c main_arg5) (funext fun a => Fin.ext ?_)
  match a with
  | ⟨0, _⟩ => show win1_2.index t (0 : Fin 2) * 64 + 1 * (y 0).val = (y 0).val; rw [e0]; omega
  | ⟨1, _⟩ => show win1_2.index t (1 : Fin 2) * 32 + 1 * (y 1).val = (y 1).val; rw [e1]; omega

theorem whole_b (c : Dev nD) (t : Fin cfg1.N) : (iblk1 V c 3 t : Vec Ideal S1x32 .f32) = (V c main_v39 : S1x32.Idx → EReal) := by
  obtain ⟨-, -, -, -, -, -, e0, e1, -⟩ := index_facts t
  funext y
  unfold iblk1
  rw [View.read_apply]
  show V c main_v39 _ = V c main_v39 y
  refine congrArg (V c main_v39) (funext fun a => Fin.ext ?_)
  match a with
  | ⟨0, _⟩ => show win1_3.index t (0 : Fin 2) * 1 + 1 * (y 0).val = (y 0).val; rw [e0]; omega
  | ⟨1, _⟩ => show win1_3.index t (1 : Fin 2) * 32 + 1 * (y 1).val = (y 1).val; rw [e1]; omega

theorem whole_wr (c : Dev nD) (t : Fin cfg1.N) : (iblk1 V c 4 t : Vec Ideal S64x32 .f32) = (V c main_arg7 : S64x32.Idx → EReal) := by
  obtain ⟨-, -, -, -, -, -, -, -, e0, e1, -⟩ := index_facts t
  funext y
  unfold iblk1
  rw [View.read_apply]
  show V c main_arg7 _ = V c main_arg7 y
  refine congrArg (V c main_arg7) (funext fun a => Fin.ext ?_)
  match a with
  | ⟨0, _⟩ => show win1_4.index t (0 : Fin 2) * 64 + 1 * (y 0).val = (y 0).val; rw [e0]; omega
  | ⟨1, _⟩ => show win1_4.index t (1 : Fin 2) * 32 + 1 * (y 1).val = (y 1).val; rw [e1]; omega

theorem whole_wp (c : Dev nD) (t : Fin cfg1.N) : (iblk1 V c 5 t : Vec Ideal S32x32 .f32) = (V c main_arg8 : S32x32.Idx → EReal) := by
  obtain ⟨-, -, -, -, -, -, -, -, -, -, e0, e1, -⟩ := index_facts t
  funext y
  unfold iblk1
  rw [View.read_apply]
  show V c main_arg8 _ = V c main_arg8 y
  refine congrArg (V c main_arg8) (funext fun a => Fin.ext ?_)
  match a with
  | ⟨0, _⟩ => show win1_5.index t (0 : Fin 2) * 32 + 1 * (y 0).val = (y 0).val; rw [e0]; omega
  | ⟨1, _⟩ => show win1_5.index t (1 : Fin 2) * 32 + 1 * (y 1).val = (y 1).val; rw [e1]; omega

theorem whole_bp (c : Dev nD) (t : Fin cfg1.N) : (iblk1 V c 6 t : Vec Ideal S1x32 .f32) = (V c main_v40 : S1x32.Idx → EReal) := by
  obtain ⟨-, -, -, -, -, -, -, -, -, -, -, -, e0, e1, -⟩ := index_facts t
  funext y
  unfold iblk1
  rw [View.read_apply]
  show V c main_v40 _ = V c main_v40 y
  refine congrArg (V c main_v40) (funext fun a => Fin.ext ?_)
  match a with
  | ⟨0, _⟩ => show win1_6.index t (0 : Fin 2) * 1 + 1 * (y 0).val = (y 0).val; rw [e0]; omega
  | ⟨1, _⟩ => show win1_6.index t (1 : Fin 2) * 32 + 1 * (y 1).val = (y 1).val; rw [e1]; omega

theorem whole_wc (c : Dev nD) (t : Fin cfg1.N) : (iblk1 V c 7 t : Vec Ideal S32x2 .f32) = (V c main_arg10 : S32x2.Idx → EReal) := by
  obtain ⟨-, -, -, -, -, -, -, -, -, -, -, -, -, -, e0, e1, -⟩ := index_facts t
  funext y
  unfold iblk1
  rw [View.read_apply]
  show V c main_arg10 _ = V c main_arg10 y
  refine congrArg (V c main_arg10) (funext fun a => Fin.ext ?_)
  match a with
  | ⟨0, _⟩ => show win1_7.index t (0 : Fin 2) * 32 + 1 * (y 0).val = (y 0).val; rw [e0]; omega
  | ⟨1, _⟩ => show win1_7.index t (1 : Fin 2) * 2 + 1 * (y 1).val = (y 1).val; rw [e1]; omega

theorem whole_bc (c : Dev nD) (t : Fin cfg1.N) : (iblk1 V c 8 t : Vec Ideal S1x2 .f32) = (V c main_v41 : S1x2.Idx → EReal) := by
  obtain ⟨-, -, -, -, -, -, -, -, -, -, -, -, -, -, -, -, e0, e1, -⟩ := index_facts t
  funext y
  unfold iblk1
  rw [View.read_apply]
  show V c main_v41 _ = V c main_v41 y
  refine congrArg (V c main_v41) (funext fun a => Fin.ext ?_)
  match a with
  | ⟨0, _⟩ => show win1_8.index t (0 : Fin 2) * 1 + 1 * (y 0).val = (y 0).val; rw [e0]; omega
  | ⟨1, _⟩ => show win1_8.index t (1 : Fin 2) * 2 + 1 * (y 1).val = (y 1).val; rw [e1]; omega

/-! ## The two output arrays -/

/-- The bias rows read off their leading unit axis. -/
abbrev b2 (c : Dev nD) : Fin 32 → EReal := fun q => (V c main_v39 : S1x32.Idx → EReal) (ix2 (0 : Fin 1) q)
abbrev bp (c : Dev nD) : Fin 32 → EReal := fun q => (V c main_v40 : S1x32.Idx → EReal) (ix2 (0 : Fin 1) q)
abbrev bc (c : Dev nD) : Fin 2 → EReal := fun q => (V c main_v41 : S1x2.Idx → EReal) (ix2 (0 : Fin 1) q)

/-- The projection as one array of the arrays the region finds. -/
abbrev resultZ (c : Dev nD) : S100000x32.Idx → EReal :=
  projected (V c main_v38) (V c main_v26) (V c main_arg5) (b2 V c) (V c main_arg7) (V c main_arg8) (bp V c)

/-- The classification as one array of the arrays the region finds. -/
abbrev resultL (c : Dev nD) : S100000x2.Idx → EReal :=
  classified (V c main_v38) (V c main_v26) (V c main_arg5) (b2 V c) (V c main_arg7) (V c main_arg8) (bp V c) (V c main_arg10) (bc V c)

/-- What point t writes back to the projection's array is block t of `resultZ`. -/
theorem flushedZ_eq (c : Dev nD) (t : Fin cfg1.N) :
    (dat1 (F := Ideal) V c).flushed 9 t = ((cfg1.win 9).blk t).view.read (Elt Ideal) (resultZ V c) := by
  show (cfg1.win 9).cut (grid1.coords t) ((dat1 (F := Ideal) V c).after 9 t) = _
  rw [after1_9]
  unfold out1_9
  rw [View.canon_unit_zero hz]
  simp only [View.ld_unit_zero (S := S5000x64) hz, View.ld_unit_zero (S := S64x32) hz, View.ld_unit_zero (S := S1x32) hz,
    View.ld_unit_zero (S := S32x32) hz]
  obtain ⟨-, -, -, -, -, -, -, -, -, -, -, -, -, -, -, -, -, -, e0, e1, -⟩ := index_facts t
  funext j
  obtain ⟨p, q, rfl⟩ : ∃ (p : Fin 5000) (q : Fin 32), j = ix2 p q := ⟨j 0, j 1, eq_ix2 j⟩
  have ht : t.val < 20 := by have h := t.isLt; have hN : cfg1.N = 20 := N_1; omega
  let r : Fin 100000 := ⟨5000 * t.val + p.val, by have := p.isLt; omega⟩
  have hemb : ((cfg1.win 9).blk t).view.emb (ix2 p q) = (ix2 r q : S100000x32.Idx) := funext fun a => Fin.ext (by
    match a with
    | ⟨0, _⟩ => show win1_9.index t (0 : Fin 2) * 5000 + 1 * p.val = 5000 * t.val + p.val; rw [e0]; omega
    | ⟨1, _⟩ => show win1_9.index t (1 : Fin 2) * 32 + 1 * q.val = q.val; rw [e1]; omega)
  show k1_pay2 (F := Ideal) (iblk1 V c 0 t) (iblk1 V c 1 t) (iblk1 V c 2 t) (iblk1 V c 4 t) (iblk1 V c 3 t) (iblk1 V c 5 t) (iblk1 V c 6 t) (ix2 p q)
    = resultZ V c (((cfg1.win 9).blk t).view.emb (ix2 p q))
  rw [hemb, projection_apply, whole_wl, whole_b, whole_wr, whole_wp, whole_bp]
  show _ = zRow (rowOf (V c main_v38) r) (rowOf (V c main_v26) r) _ _ _ _ _ q
  refine congrArg₂ (fun a b => zRow a b _ _ _ _ _ q) (funext fun k => ?_) (funext fun k => ?_)
  · exact row_mean V c t p k r rfl
  · exact row_h V c t p k r rfl

/-- What point t writes back to the classification's array is block t of `resultL`. -/
theorem flushedL_eq (c : Dev nD) (t : Fin cfg1.N) :
    (dat1 (F := Ideal) V c).flushed 10 t = ((cfg1.win 10).blk t).view.read (Elt Ideal) (resultL V c) := by
  show (cfg1.win 10).cut (grid1.coords t) ((dat1 (F := Ideal) V c).after 10 t) = _
  rw [after1_10]
  unfold out1_10
  rw [View.canon_unit_zero hz]
  simp only [View.ld_unit_zero (S := S5000x64) hz, View.ld_unit_zero (S := S64x32) hz, View.ld_unit_zero (S := S1x32) hz,
    View.ld_unit_zero (S := S32x32) hz, View.ld_unit_zero (S := S32x2) hz, View.ld_unit_zero (S := S1x2) hz]
  obtain ⟨-, -, -, -, -, -, -, -, -, -, -, -, -, -, -, -, -, -, -, -, e0, e1⟩ := index_facts t
  funext j
  obtain ⟨p, q, rfl⟩ : ∃ (p : Fin 5000) (q : Fin 2), j = ix2 p q := ⟨j 0, j 1, eq_ix2 j⟩
  have ht : t.val < 20 := by have h := t.isLt; have hN : cfg1.N = 20 := N_1; omega
  let r : Fin 100000 := ⟨5000 * t.val + p.val, by have := p.isLt; omega⟩
  have hemb : ((cfg1.win 10).blk t).view.emb (ix2 p q) = (ix2 r q : S100000x2.Idx) := funext fun a => Fin.ext (by
    match a with
    | ⟨0, _⟩ => show win1_10.index t (0 : Fin 2) * 5000 + 1 * p.val = 5000 * t.val + p.val; rw [e0]; omega
    | ⟨1, _⟩ => show win1_10.index t (1 : Fin 2) * 2 + 1 * q.val = q.val; rw [e1]; omega)
  show k1_pay1 (F := Ideal) (k1_pay3 (F := Ideal) (iblk1 V c 0 t) (iblk1 V c 1 t) (iblk1 V c 2 t) (iblk1 V c 4 t) (iblk1 V c 3 t) (iblk1 V c 5 t) (iblk1 V c 6 t) (iblk1 V c 7 t)) (iblk1 V c 8 t) (ix2 p q)
    = resultL V c (((cfg1.win 10).blk t).view.emb (ix2 p q))
  rw [hemb, classification_apply, whole_wl, whole_b, whole_wr, whole_wp, whole_bp, whole_wc, whole_bc]
  show _ = logitRow (rowOf (V c main_v38) r) (rowOf (V c main_v26) r) _ _ _ _ _ _ _ q
  refine congrArg₂ (fun a b => logitRow a b _ _ _ _ _ _ _ q) (funext fun k => ?_) (funext fun k => ?_)
  · exact row_mean V c t p k r rfl
  · exact row_h V c t p k r rfl

/-- An index of an output array is in point t's block iff each coordinate is in the block's range. -/
theorem mem_blkZ (t : Fin cfg1.N) (i : S100000x32.Idx) :
    i ∈ ((cfg1.win 9).blk t).view.set ↔ ∀ a : Fin 2, win1_9.index t a * S5000x32.size a ≤ (i a).val ∧ (i a).val < win1_9.index t a * S5000x32.size a + S5000x32.size a := by
  show i ∈ ((View.whole main_v42_0).slice (win1_9.rect t)).set ↔ _
  rw [View.set_slice_whole, Rect.mem_set_unit]
  exact Iff.rfl

theorem mem_blkL (t : Fin cfg1.N) (i : S100000x2.Idx) :
    i ∈ ((cfg1.win 10).blk t).view.set ↔ ∀ a : Fin 2, win1_10.index t a * S5000x2.size a ≤ (i a).val ∧ (i a).val < win1_10.index t a * S5000x2.size a + S5000x2.size a := by
  show i ∈ ((View.whole main_v42_1).slice (win1_10.rect t)).set ↔ _
  rw [View.set_slice_whole, Rect.mem_set_unit]
  exact Iff.rfl

/-- Every entry of an output array lies in the block of the point its row falls in. -/
theorem coverZ (i : S100000x32.Idx) : ∃ t : Fin cfg1.N, (cfg1.win 9).flush t = true ∧ i ∈ ((cfg1.win 9).blk t).view.set := by
  have hi0 : (i 0).val < 100000 := (i 0).isLt
  have hi1 : (i 1).val < 32 := (i 1).isLt
  let t : Fin cfg1.N := ⟨(i 0).val / 5000, by rw [show cfg1.N = 20 from N_1]; omega⟩
  obtain ⟨-, -, -, -, -, -, -, -, -, -, -, -, -, -, -, -, -, -, e0, e1, -⟩ := index_facts t
  have e0' : win1_9.index t (0 : Fin 2) = (i 0).val / 5000 := e0
  refine ⟨t, flush1_9 t, ?_⟩
  rw [mem_blkZ]
  intro a
  match a with
  | ⟨0, _⟩ => show win1_9.index t (0 : Fin 2) * 5000 ≤ (i 0).val ∧ (i 0).val < win1_9.index t (0 : Fin 2) * 5000 + 5000; rw [e0']; omega
  | ⟨1, _⟩ => show win1_9.index t (1 : Fin 2) * 32 ≤ (i 1).val ∧ (i 1).val < win1_9.index t (1 : Fin 2) * 32 + 32; rw [e1]; omega

theorem coverL (i : S100000x2.Idx) : ∃ t : Fin cfg1.N, (cfg1.win 10).flush t = true ∧ i ∈ ((cfg1.win 10).blk t).view.set := by
  have hi0 : (i 0).val < 100000 := (i 0).isLt
  have hi1 : (i 1).val < 2 := (i 1).isLt
  let t : Fin cfg1.N := ⟨(i 0).val / 5000, by rw [show cfg1.N = 20 from N_1]; omega⟩
  obtain ⟨-, -, -, -, -, -, -, -, -, -, -, -, -, -, -, -, -, -, -, -, e0, e1⟩ := index_facts t
  have e0' : win1_10.index t (0 : Fin 2) = (i 0).val / 5000 := e0
  refine ⟨t, flush1_10 t, ?_⟩
  rw [mem_blkL]
  intro a
  match a with
  | ⟨0, _⟩ => show win1_10.index t (0 : Fin 2) * 5000 ≤ (i 0).val ∧ (i 0).val < win1_10.index t (0 : Fin 2) * 5000 + 5000; rw [e0']; omega
  | ⟨1, _⟩ => show win1_10.index t (1 : Fin 2) * 2 ≤ (i 1).val ∧ (i 1).val < win1_10.index t (1 : Fin 2) * 2 + 2; rw [e1]; omega

/-- The region's two output arrays after the grid. -/
theorem finalZ (c : Dev nD) : (dat1 (F := Ideal) V c).arrAt 9 cfg1.N = resultZ V c :=
  (dat1 (F := Ideal) V c).arrAt_eq_of_cover 9 (resultZ V c) (fun t _ => flushedZ_eq V c t) coverZ

theorem finalL (c : Dev nD) : (dat1 (F := Ideal) V c).arrAt 10 cfg1.N = resultL V c :=
  (dat1 (F := Ideal) V c).arrAt_eq_of_cover 10 (resultL V c) (fun t _ => flushedL_eq V c t) coverL

end Cert.KernelIdeal.Layer2

end
-- ==== Proof.RefValue.lean ====
/-
  The reference program's stages are the network's row functions applied node by node.

  Each of its four dense steps is a whole-array matrix product, a bias spread over the nodes and (for the two layers) the
  rectifier; read at entry (p, q) these are the sums of `Cert.Sage.sageRow64`, `sageRow32`, `zRow` and `logitRow` over
  row p of the step's input arrays.  The means that feed the two layers are the division spelling of the neighbour mean,
  of the input features and of the first layer's output.
-/
import proofs.«102204_j17428977287455_1_alg».proof.Proof.Gen.ReferenceIdeal.Read
import proofs.«102204_j17428977287455_1_alg».proof.Proof.SageSpec
import proofs.«102204_j17428977287455_1_alg».proof.Proof.MeanStage
import Idealize.ShloMosaic.Lib.ValueIdx

set_option maxRecDepth 16384

noncomputable section

namespace Cert.Sage.Ref

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.Sage Cert.Sage.Mean

/-! ## The generated operand indices are (row, k) and (k, column); a spread bias is read at the column -/

theorem lidx23 (i : S100000x64.Idx) (k : Fin 64) : lidx_main_v23 i k = (ix2 (i 0) k : S100000x64.Idx) :=
  funext fun a => Fin.ext (by match a with | ⟨0, _⟩ => rfl | ⟨1, _⟩ => rfl)
theorem ridx23 (i : S100000x64.Idx) (k : Fin 64) : ridx_main_v23 i k = (ix2 k (i 1) : S64x64.Idx) :=
  funext fun a => Fin.ext (by match a with | ⟨0, _⟩ => rfl | ⟨1, _⟩ => rfl)
theorem lidx27 (i : S100000x64.Idx) (k : Fin 64) : lidx_main_v27 i k = (ix2 (i 0) k : S100000x64.Idx) :=
  funext fun a => Fin.ext (by match a with | ⟨0, _⟩ => rfl | ⟨1, _⟩ => rfl)
theorem ridx27 (i : S100000x64.Idx) (k : Fin 64) : ridx_main_v27 i k = (ix2 k (i 1) : S64x64.Idx) :=
  funext fun a => Fin.ext (by match a with | ⟨0, _⟩ => rfl | ⟨1, _⟩ => rfl)
theorem lidx49 (i : S100000x32.Idx) (k : Fin 64) : lidx_main_v49 i k = (ix2 (i 0) k : S100000x64.Idx) :=
  funext fun a => Fin.ext (by match a with | ⟨0, _⟩ => rfl | ⟨1, _⟩ => rfl)
theorem ridx49 (i : S100000x32.Idx) (k : Fin 64) : ridx_main_v49 i k = (ix2 k (i 1) : S64x32.Idx) :=
  funext fun a => Fin.ext (by match a with | ⟨0, _⟩ => rfl | ⟨1, _⟩ => rfl)
theorem lidx53 (i : S100000x32.Idx) (k : Fin 64) : lidx_main_v53 i k = (ix2 (i 0) k : S100000x64.Idx) :=
  funext fun a => Fin.ext (by match a with | ⟨0, _⟩ => rfl | ⟨1, _⟩ => rfl)
theorem ridx53 (i : S100000x32.Idx) (k : Fin 64) : ridx_main_v53 i k = (ix2 k (i 1) : S64x32.Idx) :=
  funext fun a => Fin.ext (by match a with | ⟨0, _⟩ => rfl | ⟨1, _⟩ => rfl)
theorem lidx56 (i : S100000x32.Idx) (k : Fin 32) : lidx_main_v56 i k = (ix2 (i 0) k : S100000x32.Idx) :=
  funext fun a => Fin.ext (by match a with | ⟨0, _⟩ => rfl | ⟨1, _⟩ => rfl)
theorem ridx56 (i : S100000x32.Idx) (k : Fin 32) : ridx_main_v56 i k = (ix2 k (i 1) : S32x32.Idx) :=
  funext fun a => Fin.ext (by match a with | ⟨0, _⟩ => rfl | ⟨1, _⟩ => rfl)
theorem lidx60 (i : S100000x2.Idx) (k : Fin 32) : lidx_main_v60 i k = (ix2 (i 0) k : S100000x32.Idx) :=
  funext fun a => Fin.ext (by match a with | ⟨0, _⟩ => rfl | ⟨1, _⟩ => rfl)
theorem ridx60 (i : S100000x2.Idx) (k : Fin 32) : ridx_main_v60 i k = (ix2 k (i 1) : S32x2.Idx) :=
  funext fun a => Fin.ext (by match a with | ⟨0, _⟩ => rfl | ⟨1, _⟩ => rfl)
theorem bidx25 (i : S100000x64.Idx) : idx_main_v24 (idx_main_v25 i) = (ix1 (i 1) : S64.Idx) :=
  funext fun a => Fin.ext (by match a with | ⟨0, _⟩ => rfl)
theorem bidx51 (i : S100000x32.Idx) : idx_main_v50 (idx_main_v51 i) = (ix1 (i 1) : S32.Idx) :=
  funext fun a => Fin.ext (by match a with | ⟨0, _⟩ => rfl)
theorem bidx58 (i : S100000x32.Idx) : idx_main_v57 (idx_main_v58 i) = (ix1 (i 1) : S32.Idx) :=
  funext fun a => Fin.ext (by match a with | ⟨0, _⟩ => rfl)
theorem bidx62 (i : S100000x2.Idx) : idx_main_v61 (idx_main_v62 i) = (ix1 (i 1) : S2.Idx) :=
  funext fun a => Fin.ext (by match a with | ⟨0, _⟩ => rfl)

/-! ## The four dense steps -/

/-- The first layer's output is `hidden1` of the first mean and the input features. -/
theorem first_layer (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v29 (F := Ideal) x0 x1 x2 x3 x4
      = hidden1 (val_main_v22 (F := Ideal) x0 x1) x0 x2 (fun q => x3 (ix1 q)) x4 := by
  funext i
  rw [val_main_v29_apply, val_main_v28_apply, val_main_v26_apply, val_main_v23_apply, val_main_v25_apply, val_main_v24_apply,
    val_main_v27_apply, val_main_call0_v0_apply, val_main_call0_cst_apply]
  simp only [lidx23, ridx23, lidx27, ridx27, bidx25]
  rfl

/-- An entry of the second layer's output is `sageRow32` of the node's rows of the second mean and of the first layer's output. -/
theorem second_layer_apply (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (p : Fin 100000) (q : Fin 32) :
    val_main_v55 (F := Ideal) x0 x1 x2 x3 x4 x5 x6 x7 (ix2 p q)
      = sageRow32 (rowOf (val_main_v48 (F := Ideal) x0 x1 x2 x3 x4) p) (rowOf (val_main_v29 (F := Ideal) x0 x1 x2 x3 x4) p) x5 (fun q => x6 (ix1 q)) x7 q := by
  rw [val_main_v55_apply, val_main_v54_apply, val_main_v52_apply, val_main_v49_apply, val_main_v51_apply, val_main_v50_apply,
    val_main_v53_apply, val_main_call1_v0_apply, val_main_call1_cst_apply]
  simp only [lidx49, ridx49, lidx53, ridx53, bidx51]
  rfl

/-- The projection is `projected` of the second mean and the first layer's output. -/
theorem projection (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x32, .f32⟩ : BufTy).Contents (Elt Ideal)) (x9 : (⟨S32, .f32⟩ : BufTy).Contents (Elt Ideal)) :
    val_main_v59 (F := Ideal) x0 x1 x2 x3 x4 x5 x6 x7 x8 x9
      = projected (val_main_v48 (F := Ideal) x0 x1 x2 x3 x4) (val_main_v29 (F := Ideal) x0 x1 x2 x3 x4) x5 (fun q => x6 (ix1 q)) x7 x8 (fun q => x9 (ix1 q)) := by
  funext i
  rw [val_main_v59_apply, val_main_v56_apply, val_main_v58_apply, val_main_v57_apply]
  simp only [lidx56, ridx56, bidx58]
  unfold projected zRow
  refine congrArg₂ (fun a b : EReal => a + b) (Finset.sum_congr rfl fun k _ => ?_) rfl
  exact congrArg (fun a : EReal => a * x8 (ix2 k (i 1))) (second_layer_apply x0 x1 x2 x3 x4 x5 x6 x7 (i 0) k)

/-- The classifier is `classified` of the same. -/
theorem classifier (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) :
    val_main_v63 (F := Ideal) x0 x1 x2 x3 x4 x5 x6 x7 x8 x9 x10 x11
      = classified (val_main_v48 (F := Ideal) x0 x1 x2 x3 x4) (val_main_v29 (F := Ideal) x0 x1 x2 x3 x4) x5 (fun q => x6 (ix1 q)) x7 x8 (fun q => x9 (ix1 q)) x10 (fun q => x11 (ix1 q)) := by
  funext i
  rw [val_main_v63_apply, val_main_v60_apply, val_main_v62_apply, val_main_v61_apply]
  simp only [lidx60, ridx60, bidx62]
  unfold classified logitRow
  refine congrArg₂ (fun a b : EReal => a + b) (Finset.sum_congr rfl fun k _ => ?_) rfl
  rw [projection]
  rfl

/-! ## The two means -/

/-- The second mean is the division spelling of the neighbour mean of the first layer's output. -/
theorem second_mean (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v48 (F := Ideal) x0 x1 x2 x3 x4 = meanByDivision (val_main_v29 (F := Ideal) x0 x1 x2 x3 x4) x1 := by
  unfold val_main_v48 meanByDivision neighbourSum val_main_v39 val_main_v36 val_main_v47 val_main_v21 val_main_v46 val_main_v20
    val_main_v45 val_main_v19 val_main_v43 val_main_v17
  rfl

end Cert.Sage.Ref

end
-- ==== Proof.Bridge.lean ====
/-
  The two results as functions of the twelve arguments, and the reference's results as those functions.

  `firstLayerOf` is the first layer's output with the neighbour mean in its reciprocal spelling; `projectionOf` and
  `logitsOf` apply the second layer, the projection and the classifier to it and to its own neighbour mean, again in the
  reciprocal spelling.  This is literally what the kernel program computes.  The reference computes the same with the
  division spelling of the mean, and the two spellings are one array (`Cert.Sage.Mean.mean_eq`).
-/
import proofs.«102204_j17428977287455_1_alg».proof.Proof.RefValue
import proofs.«102204_j17428977287455_1_alg».proof.Proof.MeanStage
import proofs.«102204_j17428977287455_1_alg».proof.Proof.SageSpec

set_option maxRecDepth 16384

noncomputable section

namespace Cert.Sage.Bridge

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.Sage Cert.Sage.Mean Cert.Sage.Ref

/-- The first layer's output array. -/
def firstLayerOf (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) : (⟨S100000x64, .f32⟩ : BufTy).Contents (Elt Ideal) :=
  hidden1 (meanByReciprocal x0 x1) x0 x2 (fun q => x3 (ix1 q)) x4

/-- The projected second layer: the program's second result. -/
def projectionOf (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x32, .f32⟩ : BufTy).Contents (Elt Ideal)) (x9 : (⟨S32, .f32⟩ : BufTy).Contents (Elt Ideal)) : (⟨S100000x32, .f32⟩ : BufTy).Contents (Elt Ideal) :=
  projected (meanByReciprocal (firstLayerOf x0 x1 x2 x3 x4) x1) (firstLayerOf x0 x1 x2 x3 x4) x5 (fun q => x6 (ix1 q)) x7 x8 (fun q => x9 (ix1 q))

/-- The classifier's output: the program's first result. -/
def logitsOf (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) : (⟨S100000x2, .f32⟩ : BufTy).Contents (Elt Ideal) :=
  classified (meanByReciprocal (firstLayerOf x0 x1 x2 x3 x4) x1) (firstLayerOf x0 x1 x2 x3 x4) x5 (fun q => x6 (ix1 q)) x7 x8 (fun q => x9 (ix1 q))
    x10 (fun q => x11 (ix1 q))

/-- The reference's first mean is the division spelling of the neighbour mean of the input features. -/
theorem ref_firstMean (x0 : (⟨S100000x64, .f32⟩ : BufTy).Contents (Elt Ideal)) (x1 : (⟨S2x1250000, .i32⟩ : BufTy).Contents (Elt Ideal)) : val_main_v22 (F := Ideal) x0 x1 = meanByDivision x0 x1 := by
  unfold val_main_v22 meanByDivision neighbourSum val_main_v13 val_main_v10
  rfl

/-- The reference's first layer is `firstLayerOf`. -/
theorem ref_firstLayer (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) : val_main_v29 (F := Ideal) x0 x1 x2 x3 x4 = firstLayerOf x0 x1 x2 x3 x4 := by
  rw [first_layer, ref_firstMean, ← mean_eq]
  rfl

/-- The reference's second mean is the reciprocal spelling at `firstLayerOf`. -/
theorem ref_secondMean (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v48 (F := Ideal) x0 x1 x2 x3 x4 = meanByReciprocal (firstLayerOf x0 x1 x2 x3 x4) x1 := by
  rw [second_mean, ref_firstLayer, ← mean_eq]

/-- The reference's second result is `projectionOf`. -/
theorem ref_projection (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x32, .f32⟩ : BufTy).Contents (Elt Ideal)) (x9 : (⟨S32, .f32⟩ : BufTy).Contents (Elt Ideal)) : val_main_v59 (F := Ideal) x0 x1 x2 x3 x4 x5 x6 x7 x8 x9 = projectionOf x0 x1 x2 x3 x4 x5 x6 x7 x8 x9 := by
  rw [projection, ref_secondMean, ref_firstLayer]
  rfl

/-- The reference's first result is `logitsOf`. -/
theorem ref_logits (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x32, .f32⟩ : BufTy).Contents (Elt Ideal)) (x6 : (⟨S32, .f32⟩ : BufTy).Contents (Elt Ideal)) (x7 : (⟨S64x32, .f32⟩ : BufTy).Contents (Elt Ideal)) (x8 : (⟨S32x32, .f32⟩ : BufTy).Contents (Elt Ideal)) (x9 : (⟨S32, .f32⟩ : BufTy).Contents (Elt Ideal)) (x10 : (⟨S32x2, .f32⟩ : BufTy).Contents (Elt Ideal)) (x11 : (⟨S2, .f32⟩ : BufTy).Contents (Elt Ideal)) : val_main_v63 (F := Ideal) x0 x1 x2 x3 x4 x5 x6 x7 x8 x9 x10 x11 = logitsOf x0 x1 x2 x3 x4 x5 x6 x7 x8 x9 x10 x11 := by
  rw [classifier, ref_secondMean, ref_firstLayer]
  rfl

end Cert.Sage.Bridge

end
-- ==== Proof.KernelResults.lean ====
/-
  The idealized kernel program's two results as functions of its arguments.

  The first region's output array is the first layer at the arrays the region finds, and those are the argument arrays
  and the host's mean of the input features; the second region's two output arrays are the projection and the
  classification at the arrays that region finds, which are the first region's output, the host's mean of it, and the
  remaining arguments.  Chained, the two results are `Cert.Sage.Bridge.logitsOf` and `projectionOf` of the twelve
  arguments; the run ends with them in the result buffers.
-/
import proofs.«102204_j17428977287455_1_alg».proof.Proof.KernelExit
import proofs.«102204_j17428977287455_1_alg».proof.Proof.HostStages
import proofs.«102204_j17428977287455_1_alg».proof.Proof.Layer1Blocks
import proofs.«102204_j17428977287455_1_alg».proof.Proof.Layer2Blocks
import proofs.«102204_j17428977287455_1_alg».proof.Proof.Bridge

set_option maxRecDepth 16384

noncomputable section

namespace Cert.KernelIdeal.Results

open Cert.KernelIdeal Cert.KernelIdeal.Gen
open Idealize.ShloMosaic Idealize.ShloMosaic.TcCoe Idealize.SL.Sem Idealize.ShloMosaic.ValueIdx
open Cert.Sage Cert.Sage.Mean Cert.Sage.Bridge

variable (m : (ℓ : Loc nD τ sig) → Buf (Elt Ideal) ℓ) (ρ : Dev nD → PrngReg)

/-- The first region leaves the first layer's output array. -/
theorem first_region (c : Dev nD) :
    (dat0 (F := Ideal) (V1 m ρ) c).arrAt 5 cfg0.N
      = firstLayerOf (m ((c : Thread nD τ).loc main_arg0)) (m ((c : Thread nD τ).loc main_arg1)) (m ((c : Thread nD τ).loc main_arg2)) (m ((c : Thread nD τ).loc main_arg3)) (m ((c : Thread nD τ).loc main_arg4)) := by
  rw [Layer1.final (V1 m ρ) c]
  have eb : (fun q : Fin 64 => (V1 m ρ c main_v25 : S1x64.Idx → EReal) (ix2 (0 : Fin 1) q))
      = fun q => ((m ((c : Thread nD τ).loc main_arg3)) : S64.Idx → EReal) (ix1 q) := funext (Host.entry1_b m ρ c)
  show hidden1 (V1 m ρ c main_v24) (V1 m ρ c main_arg0) (V1 m ρ c main_arg2)
    (fun q : Fin 64 => (V1 m ρ c main_v25 : S1x64.Idx → EReal) (ix2 (0 : Fin 1) q)) (V1 m ρ c main_arg4) = _
  rw [eb, Host.entry1_mean, Host.entry1_x, Host.entry1_wl, Host.entry1_wr]
  rfl

/-- The bias rows the second region finds are the bias arguments. -/
theorem bias_rows (c : Dev nD) :
    Layer2.b2 (V3 m ρ) c = (fun q => ((m ((c : Thread nD τ).loc main_arg6)) : S32.Idx → EReal) (ix1 q))
    ∧ Layer2.bp (V3 m ρ) c = (fun q => ((m ((c : Thread nD τ).loc main_arg9)) : S32.Idx → EReal) (ix1 q))
    ∧ Layer2.bc (V3 m ρ) c = (fun q => ((m ((c : Thread nD τ).loc main_arg11)) : S2.Idx → EReal) (ix1 q)) :=
  ⟨funext (Host.entry2_b m ρ c), funext (Host.entry2_bp m ρ c), funext (Host.entry2_bc m ρ c)⟩

/-- The second region leaves the projection in its first output array. -/
theorem second_region_projection (c : Dev nD) :
    (dat1 (F := Ideal) (V3 m ρ) c).arrAt 9 cfg1.N
      = projectionOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Layer2.finalZ (V3 m ρ) c]
  obtain ⟨e2, ep, -⟩ := bias_rows m ρ c
  show projected (V3 m ρ c main_v38) (V3 m ρ c main_v26) (V3 m ρ c main_arg5) (Layer2.b2 (V3 m ρ) c) (V3 m ρ c main_arg7)
    (V3 m ρ c main_arg8) (Layer2.bp (V3 m ρ) c) = _
  rw [e2, ep, Host.entry2_mean, Host.entry2_h, Host.entry2_wl, Host.entry2_wr, Host.entry2_wp, first_region]
  rfl

/-- The second region leaves the classification in its second output array. -/
theorem second_region_logits (c : Dev nD) :
    (dat1 (F := Ideal) (V3 m ρ) c).arrAt 10 cfg1.N
      = logitsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Layer2.finalL (V3 m ρ) c]
  obtain ⟨e2, ep, ec⟩ := bias_rows m ρ c
  show classified (V3 m ρ c main_v38) (V3 m ρ c main_v26) (V3 m ρ c main_arg5) (Layer2.b2 (V3 m ρ) c) (V3 m ρ c main_arg7)
    (V3 m ρ c main_arg8) (Layer2.bp (V3 m ρ) c) (V3 m ρ c main_arg10) (Layer2.bc (V3 m ρ) c) = _
  rw [e2, ep, ec, Host.entry2_mean, Host.entry2_h, Host.entry2_wl, Host.entry2_wr, Host.entry2_wp, Host.entry2_wc, first_region]
  rfl

/-- Every execution of the program ends with the classification and the projection in its two result buffers and the
    arguments as launched. -/
theorem run : θ_run defs (onTc (τ := τ) (main (F := Ideal))) ⟨m, fun _ => 0, ρ⟩ (fun r => ∀ c : Dev nD,
      r.2.mem ((c.tc : Thread nD τ).loc main_v42_1) = logitsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v42_0) = projectionOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c).1.trans ((W4_arr m ρ c 10).trans (second_region_logits m ρ c)),
     (h c).2.1.trans ((W4_arr m ρ c 9).trans (second_region_projection m ρ c)),
     (h c).2.2⟩)
    (Exit.run m ρ)

end Cert.KernelIdeal.Results

end
-- ==== Proof.lean ====
/-
  A two-layer mean-aggregation graph network (two SAGE layers with rectifiers, a linear projection, a linear classifier)
  over 100000 nodes and 1250000 edges: the kernel program against its plain reference, over the extended reals.

  Both programs form a node's neighbour mean from the same gather of source rows and the same scatter-add into
  destination rows.  The reference divides the sum by the incoming-edge count floored at one; the kernel program
  multiplies it by the reciprocal of that floored count.  The floored count is at least one, hence not zero, and then
  x · (1 / y) = x / y on every extended real, the infinities included: the two means are one array, and finiteness of the
  inputs is never needed.  The dense part — (mean · Wl + b) + h · Wr floored at zero, twice, then · Wp + bp and · Wc + bc —
  is computed by the reference with whole-array matrix products and by the kernel program in two regions, each walking
  the nodes in 20 blocks of 5000 rows; an output entry depends only on its node's rows, the blocks tile the arrays, and
  rounding an operand to a narrower float format is the identity here, so both compute the same sums.

  The three frame claims are the generated frames (the reference's is its generated run with the results dropped); the
  idealization rewrote nothing, so `preserves` is trivial; `algebraic` puts the kernel program's run
  (Proof/KernelResults.lean) beside the reference's generated run read stage by stage (Proof/Bridge.lean).
-/
import proofs.«102204_j17428977287455_1_alg».proof.Defs
import proofs.«102204_j17428977287455_1_alg».proof.Proof.Gen.Kernel
import proofs.«102204_j17428977287455_1_alg».proof.Proof.Gen.Kernel.Skeleton
import proofs.«102204_j17428977287455_1_alg».proof.Proof.Gen.Kernel.Launch
import proofs.«102204_j17428977287455_1_alg».proof.Proof.Gen.Kernel.Points
import proofs.«102204_j17428977287455_1_alg».proof.Proof.Gen.Kernel.Frame
import proofs.«102204_j17428977287455_1_alg».proof.Proof.Gen.KernelIdeal
import proofs.«102204_j17428977287455_1_alg».proof.Proof.Gen.KernelIdeal.Skeleton
import proofs.«102204_j17428977287455_1_alg».proof.Proof.Gen.KernelIdeal.Launch
import proofs.«102204_j17428977287455_1_alg».proof.Proof.Gen.KernelIdeal.Points
import proofs.«102204_j17428977287455_1_alg».proof.Proof.Gen.KernelIdeal.Frame
import proofs.«102204_j17428977287455_1_alg».proof.Proof.Gen.ReferenceIdeal
import proofs.«102204_j17428977287455_1_alg».proof.Proof.Gen.Pre_finite_inputs
import proofs.«102204_j17428977287455_1_alg».proof.Proof.Gen.ReferenceIdeal.Run
import proofs.«102204_j17428977287455_1_alg».proof.Proof.Gen.ReferenceIdeal.Read
import proofs.«102204_j17428977287455_1_alg».proof.Proof.KernelResults
import proofs.«102204_j17428977287455_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the classification and the projection of
    `Cert.Sage.Bridge` in their result buffers: the kernel program by its run read region by region, the reference by
    its generated run read stage by stage. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v63_eq, Cert.Sage.Bridge.ref_logits, a0, a1, a2, a3, a4, a5, a6, a7, a8, a9, a10, a11]
  · obtain ⟨a0, a1, a2, a3, a4, a5, a6, a7, a8, a9, -⟩ := hagree c
    rw [Cert.ReferenceIdeal.Read.val_main_v59_eq, Cert.Sage.Bridge.ref_projection, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
